-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512 : Shape := ⟨1, ![512]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .f32) (main_arg1 : IVec S512 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Kernel.lean ====
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1 : Shape := ⟨2, ![1, 1]⟩
abbrev S128x128 : Shape := ⟨2, ![128, 128]⟩
abbrev S128x128x1 : Shape := ⟨3, ![128, 128, 1]⟩
abbrev S128x1x128 : Shape := ⟨3, ![128, 1, 128]⟩
abbrev S128x128x128 : Shape := ⟨3, ![128, 128, 128]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 9
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S1x1, .f32⟩
  | .hbm, ⟨8, _⟩ => ⟨S_, .f32⟩
  | .local _ .vmem, ⟨0, _⟩ => ⟨S512x128, .f32⟩
  | .local _ .vmem, ⟨1, _⟩ => ⟨S512x1, .i32⟩
  | .local _ .vmem, ⟨2, _⟩ => ⟨S1x512, .i32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x1, .f32⟩
  | .local _ .vmem, ⟨15, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨3, ![4, 4, 4], ![false, false, false]⟩

def k1_cond2 (i : grid1.Coords) : BitVec 1 :=
  let arg0 : BitVec 32 := BitVec.ofNat 32 (i 0).val
  let c3_i32 : BitVec 32 := 3#32
  let v40 : BitVec 1 := Scalar.cmpi .eq arg0 c3_i32
  let arg1 : BitVec 32 := BitVec.ofNat 32 (i 1).val
  let c3_i32_18 : BitVec 32 := 3#32
  let v41 : BitVec 1 := Scalar.cmpi .eq arg1 c3_i32_18
  let v42 : BitVec 1 := Scalar.andi v40 v41
  let arg2 : BitVec 32 := BitVec.ofNat 32 (i 2).val
  let c3_i32_19 : BitVec 32 := 3#32
  let v43 : BitVec 1 := Scalar.cmpi .eq arg2 c3_i32_19
  let v44 : BitVec 1 := Scalar.andi v42 v43
  let v45 : BitVec 32 := Scalar.extui v44
  let c0_i32_20 : BitVec 32 := 0#32
  let v46 : BitVec 1 := Scalar.cmpi .ne v45 c0_i32_20
  v46

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

class Facts₀ : Prop where
  shapeCasts_S512_S512x1 : S512.ShapeCasts S512x1
  shapeCasts_S512_S1x512 : S512.ShapeCasts S1x512
  inb_S512x128_S512x128_0_0 : ∀ a, (![0, 0] : Fin 2 → Nat) a + S512x128.size a ≤ S512x128.size a
  h_S512x128 : 0 < S512x128.numel
  reduces_S512x128_S512 : S512x128.Reduces [1] S512
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  natLt_1_32 : 1 < 32
  iota_S512x512_d0_w32 : S512x512.Iotas .tc 32 [0]
  iota_S512x512_d1_w32 : S512x512.Iotas .tc 32 [1]
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  reduces_S128x128x128_S128x128 : S128x128x128.Reduces [2] S128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  shapeCasts_S1x1_S_ : S1x1.ShapeCasts S_
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .i32 = 32 ∨ (Rect.block (s := S512x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .i32 = 32 ∨ (Rect.block (s := S1x512) S1x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S512x512.size a
  hwx1_0 : ∀ i : grid1.Coords, EltTy.bits .f32 = 32 ∨ (Rect.block (s := S512x512) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x512.size a
  hwx1_1 : ∀ i : grid1.Coords, EltTy.bits .f32 = 32 ∨ (Rect.block (s := S512x512) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S512x512.size a
  hwx1_2 : ∀ i : grid1.Coords, EltTy.bits .f32 = 32 ∨ (Rect.block (s := S512x512) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S512x512.size a
  hwx1_3 : ∀ i : grid1.Coords, EltTy.bits .f32 = 32 ∨ (Rect.block (s := S512x512) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S512x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S512x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S512x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_2) S128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S512x128 : Shape := ⟨2, ![512, 128]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S128x512 : Shape := ⟨2, ![128, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 68
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S512x128, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S128x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .i1⟩
  | .hbm, ⟨22, _⟩ => ⟨S_, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S_, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x1, .i32⟩
  | .hbm, ⟨32, _⟩ => ⟨S1x512, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x512, .i32⟩
  | .hbm, ⟨37, _⟩ => ⟨S512x512, .i32⟩
  | .hbm, ⟨38, _⟩ => ⟨S_, .i32⟩
  | .hbm, ⟨39, _⟩ => ⟨S512x512, .i32⟩
  | .hbm, ⟨40, _⟩ => ⟨S512x512, .i32⟩
  | .hbm, ⟨41, _⟩ => ⟨S512x512, .i1⟩
  | .hbm, ⟨42, _⟩ => ⟨S512x512, .i1⟩
  | .hbm, ⟨43, _⟩ => ⟨S512x512, .i1⟩
  | .hbm, ⟨44, _⟩ => ⟨S512x512, .i1⟩
  | .hbm, ⟨45, _⟩ => ⟨S512x512x1, .f32⟩
  | .hbm, ⟨46, _⟩ => ⟨S512x1x512, .f32⟩
  | .hbm, ⟨47, _⟩ => ⟨S512x512x512, .f32⟩
  | .hbm, ⟨48, _⟩ => ⟨S512x512x512, .f32⟩
  | .hbm, ⟨49, _⟩ => ⟨S512x512x512, .f32⟩
  | .hbm, ⟨50, _⟩ => ⟨S_, .f32⟩
  | .hbm, ⟨51, _⟩ => ⟨S512x512x512, .f32⟩
  | .hbm, ⟨52, _⟩ => ⟨S512x512x512, .f32⟩
  | .hbm, ⟨53, _⟩ => ⟨S_, .f32⟩
  | .hbm, ⟨54, _⟩ => ⟨S_, .f32⟩
  | .hbm, ⟨55, _⟩ => ⟨S512x512x512, .f32⟩
  | .hbm, ⟨56, _⟩ => ⟨S512x512x512, .f32⟩
  | .hbm, ⟨57, _⟩ => ⟨S512x512x1, .i1⟩
  | .hbm, ⟨58, _⟩ => ⟨S512x1x512, .i1⟩
  | .hbm, ⟨59, _⟩ => ⟨S512x512x512, .i1⟩
  | .hbm, ⟨60, _⟩ => ⟨S512x512x512, .i1⟩
  | .hbm, ⟨61, _⟩ => ⟨S512x512x512, .i1⟩
  | .hbm, ⟨62, _⟩ => ⟨S_, .f32⟩
  | .hbm, ⟨63, _⟩ => ⟨S_, .f32⟩
  | .hbm, ⟨64, _⟩ => ⟨S512x512x512, .f32⟩
  | .hbm, ⟨65, _⟩ => ⟨S512x512x512, .f32⟩
  | .hbm, ⟨66, _⟩ => ⟨S_, .f32⟩
  | .hbm, ⟨67, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_call2_v0 : Ref sig .tc := ⟨.hbm, 54, rfl⟩
abbrev main_call2_v1 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_call3_v0 : Ref sig .tc := ⟨.hbm, 63, rfl⟩
abbrev main_call3_v1 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  reducesTo_S512x128_S512_d1 : S512x128.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x128_S128x512_1_0 : S512x128.Transposes [1, 0] S128x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  dot_S512x128_S128x512_S512x512_1_0_0_1_n_n_wf : DotDims.WF S512x128 S128x512 S512x512 [1] [0] [0] [1] [] []

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

class Facts : Prop extends Facts₀ where

variable [Facts]
-- ==== Proof.K.R0Body.lean ====
/- REGION 0 of @main (custom_call 0, the distance and mask kernel), at any scalar field F and at a PARAMETER V, the
   TensorCore's buffer contents when the region is entered: each window's block at a point (iblk0), what the body
   leaves in each output window's buffer as a function of the input blocks (out0_3, out0_4, out0_5), the body's triple
   (sound_kernel0), the pipeline's proof data (dat0) and the body obligation at every point (body_obligation0).
   The body is one control case; every load and every store is of a whole buffer. -/
import proofs.«102896_j14233521619194_2_alg».proof.Proof.Gen.Kernel.Launch
import proofs.«102896_j14233521619194_2_alg».proof.Proof.Gen.Kernel.Skeleton
import proofs.«102896_j14233521619194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 512 x 512 (View.cover_of_tiled): the structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 0 of @main: custom_call 0 (pipeline 0), at the entry contents V -/

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is V's (hA) and whose body leaves the block in place (hafter): the window is uncut and never
    idle (Dat.before_in_eq_fetched). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S512x128 := Rect.unit (s := S512x128) ![0, 0] S512x128.size inb_S512x128_S512x128_0_0
abbrev r0_1 : Rect S512x512 := Rect.unit (s := S512x512) ![0, 0] S512x512.size inb_S512x512_S512x512_0_0
abbrev r0_2 : Rect S512x1 := Rect.unit (s := S512x1) ![0, 0] S512x1.size inb_S512x1_S512x1_0_0
abbrev r0_3 : Rect S1x512 := Rect.unit (s := S1x512) ![0, 0] S1x512.size inb_S1x512_S1x512_0_0

/-! ## What the body leaves in each output window's buffer -/

/-- Window 3's staging buffer after the body, from input window 0's block: its one store as a piece
    (View.canon); the payload is the skeleton's k0_pay2 of the block as loaded. -/
def out0_3 (x0 : Vec F S512x128 .f32) : Vec F S512x512 .f32 :=
  View.canon [⟨r0_1, k0_pay2 (View.ld x0 r0_0)⟩]

/-- Window 4's staging buffer after the body, from input windows 1 and 2's blocks: its one store as a piece;
    the payload is the skeleton's k0_pay4 of the two blocks as loaded. -/
def out0_4 (x1 : Vec F S512x1 .i32) (x2 : Vec F S1x512 .i32) : Vec F S512x512 .f32 :=
  View.canon [⟨r0_1, k0_pay4 (View.ld x1 r0_2) (View.ld x2 r0_3)⟩]

/-- Window 5's staging buffer after the body, from input windows 1 and 2's blocks: its one store as a piece;
    the payload is the skeleton's k0_pay1 of k0_pay3 of the two blocks as loaded and of the constant k0_pay5. -/
def out0_5 (x1 : Vec F S512x1 .i32) (x2 : Vec F S1x512 .i32) : Vec F S512x512 .f32 :=
  View.canon [⟨r0_1, k0_pay1 (k0_pay3 (View.ld x1 r0_2) (View.ld x2 r0_3)) (k0_pay5 (F := F))⟩]

/-- One whole-buffer store tiles the 512 x 512 buffer (the tiling arithmetic is checked by evaluation), so it covers it. -/
theorem cover0_o (p0 : Vec F S512x512 .f32) (y : S512x512.Idx) :
    ∃ pc ∈ ([⟨r0_1, p0⟩] : List (View.Piece (Elt F) S512x512 .f32)), y ∈ pc.1.set :=
  View.cover_of_tiled [⟨r0_1, p0⟩] S512x512.size (by rfl) y

/-! ## The body's triple -/

set_option maxHeartbeats 1000000 in
/-- The kernel body on whole staging memrefs, the inputs' at read contents x0, x1, x2 and the outputs' at anything,
    runs to the continuation holding the inputs' as they were and each output's at out0_W of the inputs': the printed
    functions are their skeletons, which are run operation by operation, through the part call. -/
theorem sound_kernel0 (c : Dev nD) (E : Set ℕ) (i : grid0.Coords)
    (arg1 : Memref sig .tc .vmem S512x128 .f32) (harg1 : arg1.IsWhole) (arg2 : Memref sig .tc .vmem S512x1 .i32) (harg2 : arg2.IsWhole)
    (arg3 : Memref sig .tc .vmem S1x512 .i32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .f32) (harg6 : arg6.IsWhole)
    (x0 : Vec F S512x128 .f32) (x1 : Vec F S512x1 .i32) (x2 : Vec F S1x512 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x1 x2)
            ∗ owns (c : Thread nD τ) arg6 fullShare (out0_5 x1 x2)) -∗ K ⟨⟩))
      ⊢ wp frame (wpE (defs₀ (F := F)) Variants.none c none) E (cc0__dist_mask_kernel i arg1 harg1 arg2 harg2 arg3 harg3 arg4 harg4 arg5 harg5 arg6 harg6) K := by
  simp only [cc0__dist_mask_kernel_eq_skeleton, k0_part1_eq_skeleton]; unfold cc0__dist_mask_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The pipeline's proof data -/

/-- The proof data of pipeline 0 on core c: the arrays as the region finds them (V); after the body at point t each
    input's buffer at its block and each output's at out0_W of the input blocks; the invariant is the scoped rest and
    the generator register, untouched (ΦA); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 1 t) (iblk0 V c 2 t)
    | ⟨5, _⟩ => out0_5 (iblk0 V c 1 t) (iblk0 V c 2 t)
  Φ _ := Pipeline.ΦA spec0 c
  q _ := fullShare
  owed _ := 0

/-- The proof data's arrays are the region-entry contents (the definition projected, never compared by unfolding). -/
theorem A_eq0 (c : Dev nD) (w : Fin cfg0.W) : (dat0 V c).A w = V c (Pipeline.arrRef spec0 w) := by
  dsimp only [dat0]

/-- What the body leaves, window by window (the proof data's match reduced, never compared by unfolding). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 1 t) (iblk0 V c 2 t) := by dsimp only [dat0]
theorem after0_5 (c : Dev nD) (t : Fin cfg0.N) : (dat0 V c).after 5 t = out0_5 (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (before0_W), so sound_kernel0 applies; the invariant
    and the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.K.R1Runs.lean ====
/- The second kernel region (the triplet-sum reduction over a 4x4x4 grid): what the three runs of its body share.
   The windows' blocks read off the region-entry contents; that an input window's staging buffer holds its block at
   every point; the body's two branch conditions in closed form over the 64 points (all coordinates 0: point 0; all
   coordinates 3: point 63); where the one output window is idle; the staging and scratch memrefs; and the class
   invariant unfolded into the accumulator scratch, the other region's staging buffers and the generator register. -/
import proofs.«102896_j14233521619194_2_alg».proof.Proof.Gen.Kernel.Launch
import proofs.«102896_j14233521619194_2_alg».proof.Proof.Gen.Kernel.Skeleton
import proofs.«102896_j14233521619194_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffer contents when the second kernel region is entered: a parameter of everything below.
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (`k1_h1`), from the grid coordinates (the scalar chain
    substituted): all three coordinates are 0. -/
abbrev cond1_0 (i : grid1.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at point 0 only — decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the body's second `scf.if` (`k1_h2`): all three coordinates are 3. -/
abbrev cond1_1 (i : grid1.Coords) : Prop := k1_cond2 i = 1#1
/-- It holds at point 63 only — decided over the grid. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle (the configuration's table `Cfg.idle`) -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- At the first point the configuration calls output 4 idle: the case stores nothing into it. -/
theorem idleAt1_4_A : ∀ t : Fin cfg1.N, cond1_0 (grid1.coords t) → ¬cond1_1 (grid1.coords t) → cfg1.idle 4 (grid1.coords t) = true := by decide +kernel
/-- At the first point the pipeline does not write output 4's block back. -/
theorem noFlush1_4_A : ∀ t : Fin cfg1.N, cond1_0 (grid1.coords t) → ¬cond1_1 (grid1.coords t) → (cfg1.win 4).flush t = false := by decide +kernel
/-- At the middle points the configuration calls output 4 idle: the case stores nothing into it. -/
theorem idleAt1_4_B : ∀ t : Fin cfg1.N, ¬cond1_0 (grid1.coords t) → ¬cond1_1 (grid1.coords t) → cfg1.idle 4 (grid1.coords t) = true := by decide +kernel
/-- At the middle points the pipeline does not write output 4's block back. -/
theorem noFlush1_4_B : ∀ t : Fin cfg1.N, ¬cond1_0 (grid1.coords t) → ¬cond1_1 (grid1.coords t) → (cfg1.win 4).flush t = false := by decide +kernel
/-- At the last point the configuration calls output 4 live: the case stores into it. -/
theorem liveAt1_4_C : ∀ t : Fin cfg1.N, ¬cond1_0 (grid1.coords t) → cond1_1 (grid1.coords t) → cfg1.idle 4 (grid1.coords t) = false := by decide +kernel

/-! ## The staging and scratch memrefs -/

/-- The one staging buffer of output window 4, through which its contents are stated. -/
abbrev VO1_4 : View sig .tc .vmem S1x1 .f32 := (Memref.whole cc1_stg4_0 : Memref sig .tc .vmem S1x1 .f32).view
/-- Each window's current staging memref at point `t`, spelled as the pipeline passes it (`bodyAt1`), and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The scratch operand: a whole scoped buffer of the kernel's own, passed beside the windows. -/
abbrev scM1_0 : Memref sig .tc .vmem S1x1 .f32 := Memref.whole cc1_scratch0
/-- The accumulator the kernel carries between points, as a view: what it holds is stated through it. -/
abbrev VS1_0 : View sig .tc .vmem S1x1 .f32 := scM1_0.view

/-! ## The class invariant, opened -/

/-- The first kernel region's six staging buffers, each whole at some contents: scoped buffers that are no staging
    buffer of this region, which its body never touches. They ride along as one conjunct. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f))

/-- The class invariant with the scratch operand as a memref owned at some contents, beside the other region's staging
    buffers and the generator register: what the body obligation hands the run and takes back. -/
theorem PhiA1_eq (c : Dev nD) :
    (Pipeline.ΦA spec1 c : sProp 𝕄)
      = iprop(iprop(others1 c ∗ (∃ d, owns (c : Thread nD τ) scM1_0 fullShare d)) ∗ (∃ r, prngReg c r)) := by
  unfold Pipeline.ΦA others1; rw [scopedRest1_eq]; simp only [scM1_0, owns_whole]
  refine BI.equiv_iff.mp ⟨?_, ?_⟩
  · show (_ : sProp 𝕄) ⊢ _
    iintro ⟨⟨A0, A1, A2, A3, A4, A5, HS⟩, Hg⟩
    isplitr [Hg]; swap; · iexact Hg
    isplitr [HS]; swap; · iexact HS
    isplitl [A0]; · iexact A0
    isplitl [A1]; · iexact A1
    isplitl [A2]; · iexact A2
    isplitl [A3]; · iexact A3
    isplitl [A4]; · iexact A4
    iexact A5
  · show (_ : sProp 𝕄) ⊢ _
    iintro ⟨⟨⟨A0, A1, A2, A3, A4, A5⟩, HS⟩, Hg⟩
    isplitr [Hg]; swap; · iexact Hg
    isplitl [A0]; · iexact A0
    isplitl [A1]; · iexact A1
    isplitl [A2]; · iexact A2
    isplitl [A3]; · iexact A3
    isplitl [A4]; · iexact A4
    isplitl [A5]; · iexact A5
    iexact HS

end Cert.Kernel.Fr

end
-- ==== Proof.K.R1RunA.lean ====
/- The second kernel region's body run at the grid's FIRST point (all coordinates 0): the accumulator is zeroed, then
   the tile's sum is added to it; nothing is stored into the output. One module per case of the two conditionals. -/
import proofs.«102896_j14233521619194_2_alg».proof.Proof.K.R1Runs

-- membership in a rectangle of full extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffer contents when the second kernel region is entered: a parameter of everything below.
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator scratch, as pieces (last first),
    in this case of the two conditionals, WITH the proof that on whole memrefs — the four inputs' at their contents, the output's (no store here: the window is idle and not written back) at contents `xi4` handed back untouched, the scratch at anything — the body runs to the
    continuation holding the inputs' as they were and the scratch with its pieces written (`LS0`): the printed functions are their skeletons,
    which the executor runs, each `scf.if` decided by the case's hypotheses; the pieces are the witness the run finds. -/
noncomputable def kernelRun1_A (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i)
    (x0 : Vec F S128x128 .f32) (x1 : Vec F S128x128 .f32) (x2 : Vec F S128x128 .f32) (x3 : Vec F S128x128 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__triplet_sum_kernel i arg3 harg3 arg4 harg4 arg5 harg5 arg6 harg6 arg7 harg7 arg8 harg8) K } := by
  refine ⟨[], ?_, fun xi4 E K => ?run⟩
  case run =>
    simp only [cc1__triplet_sum_kernel_eq_skeleton]; unfold cc1__triplet_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.R1RunB.lean ====
/- The second kernel region's body run at a MIDDLE point (neither the first nor the last): the tile's sum is added to
   the accumulator the point before left; nothing is stored into the output. One module per case of the two conditionals. -/
import proofs.«102896_j14233521619194_2_alg».proof.Proof.K.R1RunA

-- membership in a rectangle of full extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffer contents when the second kernel region is entered: a parameter of everything below.
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator scratch, as pieces (last first),
    in this case of the two conditionals, WITH the proof that on whole memrefs — the four inputs' at their contents, the output's (no store here: the window is idle and not written back) at contents `xi4` handed back untouched, the scratch at the contents the point before left (`xs0`) — the body runs to the
    continuation holding the inputs' as they were and the scratch with its pieces written (`LS0`): the printed functions are their skeletons,
    which the executor runs, each `scf.if` decided by the case's hypotheses; the pieces are the witness the run finds. -/
noncomputable def kernelRun1_B (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i)
    (x0 : Vec F S128x128 .f32) (x1 : Vec F S128x128 .f32) (x2 : Vec F S128x128 .f32) (x3 : Vec F S128x128 .f32) (xs0 : Vec F S1x1 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__triplet_sum_kernel i arg3 harg3 arg4 harg4 arg5 harg5 arg6 harg6 arg7 harg7 arg8 harg8) K } := by
  refine ⟨[], ?_, fun xi4 E K => ?run⟩
  case run =>
    simp only [cc1__triplet_sum_kernel_eq_skeleton]; unfold cc1__triplet_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.R1RunC.lean ====
/- The second kernel region's body run at the grid's LAST point (all coordinates 3): the tile's sum is added to the
   accumulator the point before left, and the accumulator is copied to the output. One module per case of the two conditionals. -/
import proofs.«102896_j14233521619194_2_alg».proof.Proof.K.R1RunB

-- membership in a rectangle of full extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffer contents when the second kernel region is entered: a parameter of everything below.
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator scratch, as pieces (last first),
    in this case of the two conditionals, WITH the proof that on whole memrefs — the four inputs' at their contents, the output's at anything, the scratch at the contents the point before left (`xs0`) — the body runs to the
    continuation holding the inputs' as they were, the output's buffer with its pieces written (`L4`) and the scratch with its pieces written (`LS0`): the printed functions are their skeletons,
    which the executor runs, each `scf.if` decided by the case's hypotheses; the pieces are the witness the run finds. -/
noncomputable def kernelRun1_C (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i)
    (x0 : Vec F S128x128 .f32) (x1 : Vec F S128x128 .f32) (x2 : Vec F S128x128 .f32) (x3 : Vec F S128x128 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__triplet_sum_kernel i arg3 harg3 arg4 harg4 arg5 harg5 arg6 harg6 arg7 harg7 arg8 harg8) K } := by
  refine ⟨?_, ?_, fun E K => ?run⟩
  case run =>
    simp only [cc1__triplet_sum_kernel_eq_skeleton]; unfold cc1__triplet_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.K.R1Body.lean ====
/- The second kernel region's body obligation. What the output's staging buffer and the accumulator scratch hold after
   each of the 64 points (`outsAt1`: the case the closed forms select at the point, run at the point's memrefs and input
   blocks, over what the point before left in the scratch); the invariant that carries the scratch's contents from point
   to point (`PhiS1`); the proof data over region-entry contents `V` and input shares `q` (both parameters); the body at
   a generic point, case by case; and the passage between the class invariant and `PhiS1` at the region's two ends. -/
import proofs.«102896_j14233521619194_2_alg».proof.Proof.K.R1RunC

-- membership in a rectangle of full extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffer contents when the second kernel region is entered: a parameter of everything below.
variable (V : (c : Dev nD) → (b : Ref sig .tc) → Buf (Elt F) ((c : Thread nD τ).loc b))

/-- Case A stores nothing into the output (the window is idle at its points and not written back there): no pieces —
    a placeholder (junk read back) that nothing consults, since at these points the window is neither written back nor
    read at the next point. -/
def out1_A_4 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i)
    (x0 : Vec F S128x128 .f32) (x1 : Vec F S128x128 .f32) (x2 : Vec F S128x128 .f32) (x3 : Vec F S128x128 .f32) : Vec F S1x1 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- Case A's pieces for the accumulator scratch, which the kernel carries between points, cover it: whole-buffer stores of the 1x1 scratch. -/
theorem scover1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i)
    (x0 : Vec F S128x128 .f32) (x1 : Vec F S128x128 .f32) (x2 : Vec F S128x128 .f32) (x3 : Vec F S128x128 .f32) (y : S1x1.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1x1.size (by sl_kernel_rfl) y

/-- What case A leaves in the accumulator scratch: its pieces read back over junk. -/
def sout1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i)
    (x0 : Vec F S128x128 .f32) (x1 : Vec F S128x128 .f32) (x2 : Vec F S128x128 .f32) (x3 : Vec F S128x128 .f32) : Vec F S1x1 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- Case B stores nothing into the output (the window is idle at its points and not written back there): no pieces —
    a placeholder (junk read back) that nothing consults, since at these points the window is neither written back nor
    read at the next point. -/
def out1_B_4 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i)
    (x0 : Vec F S128x128 .f32) (x1 : Vec F S128x128 .f32) (x2 : Vec F S128x128 .f32) (x3 : Vec F S128x128 .f32) (xs0 : Vec F S1x1 .f32) : Vec F S1x1 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- Case B's pieces for the accumulator scratch, which the kernel carries between points, cover it: whole-buffer stores of the 1x1 scratch. -/
theorem scover1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i)
    (x0 : Vec F S128x128 .f32) (x1 : Vec F S128x128 .f32) (x2 : Vec F S128x128 .f32) (x3 : Vec F S128x128 .f32) (xs0 : Vec F S1x1 .f32) (y : S1x1.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1x1.size (by sl_kernel_rfl) y

/-- What case B leaves in the accumulator scratch: its pieces read back over junk. -/
def sout1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i)
    (x0 : Vec F S128x128 .f32) (x1 : Vec F S128x128 .f32) (x2 : Vec F S128x128 .f32) (x3 : Vec F S128x128 .f32) (xs0 : Vec F S1x1 .f32) : Vec F S1x1 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- The last point's one store into the output tiles its 1x1 block, so its pieces cover it. -/
theorem cover1_C_4 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i)
    (x0 : Vec F S128x128 .f32) (x1 : Vec F S128x128 .f32) (x2 : Vec F S128x128 .f32) (x3 : Vec F S128x128 .f32) (xs0 : Vec F S1x1 .f32) (y : S1x1.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1x1.size (by sl_kernel_rfl) y

/-- What the last point leaves in the output's staging buffer: its pieces read back over junk. -/
def out1_C_4 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i)
    (x0 : Vec F S128x128 .f32) (x1 : Vec F S128x128 .f32) (x2 : Vec F S128x128 .f32) (x3 : Vec F S128x128 .f32) (xs0 : Vec F S1x1 .f32) : Vec F S1x1 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case C's pieces for the accumulator scratch, which the kernel carries between points, cover it: whole-buffer stores of the 1x1 scratch. -/
theorem scover1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i)
    (x0 : Vec F S128x128 .f32) (x1 : Vec F S128x128 .f32) (x2 : Vec F S128x128 .f32) (x3 : Vec F S128x128 .f32) (xs0 : Vec F S1x1 .f32) (y : S1x1.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1x1.size (by sl_kernel_rfl) y

/-- What case C leaves in the accumulator scratch: its pieces read back over junk. -/
def sout1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i)
    (x0 : Vec F S128x128 .f32) (x1 : Vec F S128x128 .f32) (x2 : Vec F S128x128 .f32) (x3 : Vec F S128x128 .f32) (xs0 : Vec F S1x1 .f32) : Vec F S1x1 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## What the output and the scratch hold after each point -/

/-- THE ACCUMULATION. What the output's staging buffer and the accumulator scratch hold after the body at position `n`
    (a pair: the output, then the scratch): the case the closed forms select at `n`, run at the point's memrefs and input
    blocks, the scratch read at what this leaves at `n - 1`. An assignment of the conditions no point meets is no case. -/
def outsAt1 (c : Dev nD) : (n : ℕ) → n < cfg1.N → Vec F S1x1 .f32 × Vec F S1x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : n + 1 = 0 then
      if h1 : n + 1 = 63 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : n + 1 = 63 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at the first point: case A's contents. -/
theorem outsAt1_A (c : Dev nD) (t : Fin cfg1.N) (h0 : t.val = 0) (h1 : ¬t.val = 63) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a middle point: case B's contents, over what the point before left. -/
theorem outsAt1_B (c : Dev nD) (t : Fin cfg1.N) (h0 : ¬t.val = 0) (h1 : ¬t.val = 63) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_neg h0).trans ((dif_neg h1).trans rfl)

/-- `outsAt1` at the last point: case C's contents, over what the point before left. -/
theorem outsAt1_C (c : Dev nD) (t : Fin cfg1.N) (h0 : ¬t.val = 0) (h1 : t.val = 63) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_neg h0).trans ((dif_pos h1).trans rfl)

/-- The region invariant before position `n`, the kernel CARRYING its accumulator between points: before the first point
    the class's (every scratch at anything); afterwards the other region's staging buffers, the accumulator at what the
    point before left in it (`outsAt1`'s second component), and the generator register at some state. -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(others1 c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2)) ∗ (∃ r, prngReg c r)) := by
  cases n with
  | zero => exact absurd rfl hz
  | succ n => rfl

/-! ## The region's proof data -/

/-- The proof data of the second kernel region on core `c`: the arrays as the region finds them (`V`); after the body at
    point `t` each input's buffer at its block and the output's at `outsAt1`; the invariant `PhiS1`; nothing owed; the
    inputs' shares a parameter (two windows read one array, so they cannot both hold its full share). -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q := q
  owed _ := 0

/-- The proof data's arrays are the region-entry contents: the definition projected. -/
theorem A_eq1 (q : Fin cfg1.W → PosShare TreeShare) (c : Dev nD) (w : Fin cfg1.W) : (dat1 V q c).A w = V c (Pipeline.arrRef spec1 w) := by
  dsimp only [dat1]

/-- The invariant at a point's start (the proof data at `t.castSucc`), restated at `t.val`. -/
theorem PhiS1_castSucc (q : Fin cfg1.W → PosShare TreeShare) (c : Dev nD) (t : Fin cfg1.N) :
    (dat1 V q c).Φ t.castSucc = PhiS1 V c t.val (Nat.le_of_lt t.isLt) := by
  dsimp only [dat1]; simp only [Fin.coe_castSucc]

/-- What the body leaves, window by window (the proof data's `match` reduced). -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = (outsAt1 V c t.val t.isLt).1 := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d

/-! ## The body obligation, at a generic point -/

/-- What the body is called with at point `t` (the body obligation's precondition, the windows one by one), -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t)

set_option maxHeartbeats 4800000 in
/-- The body at any point: the inputs' memrefs hold their blocks (`before1_W`); the closed forms say which case the point
    is in; so the run applies; the invariant hands the body the accumulator at what the point before left (`PhiS1_pos`; at
    anything at the first point, `PhiS1_zero`), the other region's staging buffers and the generator register, and takes the
    accumulator back at this point's contents (`PhiS1_succ`, its pieces covering it); the core owes nothing throughout. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).owesAt () t.succ = (dat1 V q c).owesAt () t.castSucc from rfl]
  rw [show (dat1 V q c).Φ t.succ = PhiS1 V c (t.val + 1) t.isLt from rfl, PhiS1_succ]
  have hN : t.val < 64 := lt_of_lt_of_eq t.isLt (show cfg1.N = 64 from N_1)
  by_cases h0 : t.val = 0
  · by_cases h1 : t.val = 63
    · exfalso; omega
    · -- the first point
      rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [Dat.leavesExact_idle (dat1 V q c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      rw [PhiS1_castSucc V q c t, PhiS1_zero V c _ _ h0, PhiA1_eq]
      iintro ⟨⟨⟨Hr, HS0⟩, Hg⟩, Ho, ⟨%d0, H0⟩, ⟨%d1, H1⟩, ⟨%d2, H2⟩, ⟨%d3, H3⟩, ⟨%d4, H4⟩⟩
      iapply (((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _))
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · by_cases h1 : t.val = 63
    · -- the last point
      rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS1_castSucc V q c t, PhiS1_pos V c _ _ h0]
      iintro ⟨⟨⟨Hr, HS0⟩, Hg⟩, Ho, ⟨%d0, H0⟩, ⟨%d1, H1⟩, ⟨%d2, H2⟩, ⟨%d3, H3⟩, ⟨%d4, H4⟩⟩
      iapply (((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _))
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · -- a middle point
      rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [Dat.leavesExact_idle (dat1 V q c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS1_castSucc V q c t, PhiS1_pos V c _ _ h0]
      iintro ⟨⟨⟨Hr, HS0⟩, Hg⟩, Ho, ⟨%d0, H0⟩, ⟨%d1, H1⟩, ⟨%d2, H2⟩, ⟨%d3, H3⟩, ⟨%d4, H4⟩⟩
      iapply (((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _))
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

/-- What the launch hands the region (the class invariant) is the invariant before the first point. -/
theorem hin1 (q : Fin cfg1.W → PosShare TreeShare) (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After any point but the first the invariant gives the class invariant back: the accumulator's named contents are forgotten. -/
theorem Phi_out1 (q : Fin cfg1.W → PosShare TreeShare) (c : Dev nD) (t : Fin (cfg1.N + 1)) (ht : t.val ≠ 0) : (dat1 V q c).Φ t ⊢ Pipeline.ΦA spec1 c := by
  rw [show (dat1 V q c).Φ t = PhiS1 V c t.val (Nat.le_of_lt_succ t.isLt) from rfl, PhiS1_pos V c _ _ ht, PhiA1_eq]
  iintro ⟨⟨Hr, HS0⟩, Hg⟩
  isplitl [Hr HS0]
  · isplitl [Hr]; · iexact Hr
    iexists _; iexact HS0
  iexact Hg

/-- The same after the last point. -/
theorem hout1 (q : Fin cfg1.W → PosShare TreeShare) (c : Dev nD) : (dat1 V q c).Φ (Fin.last cfg1.N) ⊢ Pipeline.ΦA spec1 c :=
  Phi_out1 V q c _ (by rw [Fin.val_last]; have : cfg1.N = 64 := N_1; omega)

end Cert.Kernel.Fr

end
-- ==== Proof.K.RunMain.lean ====
import proofs.«102896_j14233521619194_2_alg».proof.Proof.Gen.Kernel.Launch
import proofs.«102896_j14233521619194_2_alg».proof.Proof.Gen.Kernel.Skeleton
import proofs.«102896_j14233521619194_2_alg».proof.Proof.Gen.Kernel.Points
import proofs.«102896_j14233521619194_2_alg».proof.Proof.K.R0Body
import proofs.«102896_j14233521619194_2_alg».proof.Proof.K.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the two regions between the host reshapes

## The buffer contents at each boundary -/

/-- Core `c`'s buffers at launch. -/
abbrev W0 : Dev nD → Valuation τ sig (Elt F) := fun c b => (s₀ m ρ).mem ((c : Dev nD), b)
/-- After the two reshapes of the labels (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its three result arrays at what its one grid point wrote back, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The shares region 1's input windows hold of their arrays: the distance matrix is read through two windows, each
    holding one half of it; the two masks through one window each. -/
def q1 : Fin cfg1.W → PosShare TreeShare
  | ⟨0, _⟩ => fullShare.left
  | ⟨1, _⟩ => fullShare.right
  | _ => fullShare

/-- At region 1's exit: the scalar result at what the last grid point wrote back, every other buffer as entered (the
    three matrices are only read). -/
def W3 (c : Dev nD) : Valuation τ sig (Elt F) :=
  Function.update (W2 m ρ c) main_v3 ((dat1 (V2 m ρ) q1 c).arrAt 4 cfg1.N)
abbrev V3 : (c : Dev nD) → (b : Ref sig .tc) → Buf (Elt F) ((c : Thread nD τ).loc b) := fun c b => W3 m ρ c b
theorem W3_v3 (c : Dev nD) : W3 m ρ c main_v3 = (dat1 (V2 m ρ) q1 c).arrAt 4 cfg1.N := by
  unfold W3; exact Function.update_self ..
theorem W3_of_ne (c : Dev nD) (b : Ref sig .tc) (hb : b ≠ main_v3) : W3 m ρ c b = W2 m ρ c b := by
  unfold W3; exact Function.update_of_ne (StableHlo.devRef_ne_of_ne hb) ..
/-- After the closing reshape. -/
abbrev W4 : Dev nD → Valuation τ sig (Elt F) := fun c => StableHlo.after hostOps2 (W3 m ρ c)

/-- At region 1's exit every one of its arrays holds what the exit contents say: the inputs are never written
    (`Dat.arrAt_in`), the result is the updated buffer. -/
theorem hF1 (c : Dev nD) (w : Fin cfg1.W) : (dat1 (V2 m ρ) q1 c).arrAt w cfg1.N = V3 m ρ c (Pipeline.arrRef spec1 w) := by
  match w with
  | ⟨0, _⟩ => exact ((dat1 (V2 m ρ) q1 c).arrAt_in 0 rfl _).trans ((A_eq1 (V2 m ρ) q1 c 0).trans (W3_of_ne m ρ c _ (by decide)).symm)
  | ⟨1, _⟩ => exact ((dat1 (V2 m ρ) q1 c).arrAt_in 1 rfl _).trans ((A_eq1 (V2 m ρ) q1 c 1).trans (W3_of_ne m ρ c _ (by decide)).symm)
  | ⟨2, _⟩ => exact ((dat1 (V2 m ρ) q1 c).arrAt_in 2 rfl _).trans ((A_eq1 (V2 m ρ) q1 c 2).trans (W3_of_ne m ρ c _ (by decide)).symm)
  | ⟨3, _⟩ => exact ((dat1 (V2 m ρ) q1 c).arrAt_in 3 rfl _).trans ((A_eq1 (V2 m ρ) q1 c 3).trans (W3_of_ne m ρ c _ (by decide)).symm)
  | ⟨4, _⟩ => exact (W3_v3 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨4, Finset.mem_univ _, e.symm⟩)

/-! ## One array behind two windows: the shares -/

/-- The buffers behind region 1's windows, one by one: four buffers for five windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2_0) ↦{fullShare} V main_v2_0) ∗ (((c : Thread nD τ).loc main_v2_1) ↦{fullShare} V main_v2_1)
          ∗ (((c : Thread nD τ).loc main_v2_2) ↦{fullShare} V main_v2_2) ∗ (((c : Thread nD τ).loc main_v3) ↦{fullShare} V main_v3)) := by
  unfold Pipeline.arrBufs
  exact bigSep_eq_bigSepL_of_eq [main_v2_0, main_v2_1, main_v2_2, main_v3] (by decide) (by decide) _

/-- Region 1's windowed arrays at contents `G`, one by one: the distance matrix at its two halves. -/
theorem arrays1_eq (c : Dev nD) (V : (c : Dev nD) → (b : Ref sig .tc) → Buf (Elt F) ((c : Thread nD τ).loc b))
    (G : (w : Fin cfg1.W) → Buf (Elt F) ((cfg1.win w).arr.view.loc (c.tc : Thread nD τ))) :
    ((dat1 V q1 c).arrays G : sProp 𝕄)
      = iprop((((c : Thread nD τ).loc main_v2_0) ↦{fullShare.left} G 0) ∗ (((c : Thread nD τ).loc main_v2_0) ↦{fullShare.right} G 1)
          ∗ (((c : Thread nD τ).loc main_v2_1) ↦{fullShare} G 2) ∗ (((c : Thread nD τ).loc main_v2_2) ↦{fullShare} G 3)
          ∗ (((c : Thread nD τ).loc main_v3) ↦{fullShare} G 4)) := by
  unfold Dat.arrays
  rw [bigSep_congr (Ψ := fun w : Fin cfg1.W => (((c : Thread nD τ).loc (Pipeline.arrRef spec1 w)) ↦{(dat1 V q1 c).share w} G w : sProp 𝕄))
    (fun w _ => by rw [(arr_whole1 w).set_eq_univ])]
  rw [bigSep_W1]
  rfl

/-- ENTRY of region 1, the arrays' part: the four buffers behind its five windows, each whole at the full share, give
    every window its array — the distance matrix split into its two halves, one per window reading it. -/
theorem arrays1_split (c : Dev nD) (V : (c : Dev nD) → (b : Ref sig .tc) → Buf (Elt F) ((c : Thread nD τ).loc b)) :
    (Pipeline.arrBufs (Ix := Unit) (Name := ℕ) (U := UR sig nD τ) (Lvl := ℕ) spec1 c (V c) : sProp 𝕄)
      ⊢ (dat1 V q1 c).arrays ((dat1 V q1 c).arrAt · 0) := by
  rw [arrBufs1_eq, arrays1_eq]
  have hsp : ((((c : Thread nD τ).loc main_v2_0) ↦{fullShare} V c main_v2_0) : sProp 𝕄)
      ⊢ iprop((((c : Thread nD τ).loc main_v2_0) ↦{fullShare.left} V c main_v2_0) ∗ (((c : Thread nD τ).loc main_v2_0) ↦{fullShare.right} V c main_v2_0)) :=
    (pointsTo_share (PosShare.mem_left_op_right fullShare)).1
  iintro ⟨H0, H1, H2, H3⟩
  ihave H0' := hsp $$ H0
  icases H0' with ⟨Hl, Hr⟩
  isplitl [Hl]; · iexact Hl
  isplitl [Hr]; · iexact Hr
  isplitl [H1]; · iexact H1
  isplitl [H2]; · iexact H2
  iexact H3

/-- EXIT of region 1, the arrays' part: the windows' arrays at contents that agree on the shared matrix give the four
    buffers back whole. -/
theorem arrays1_join (c : Dev nD) (V V' : (c : Dev nD) → (b : Ref sig .tc) → Buf (Elt F) ((c : Thread nD τ).loc b))
    (G : (w : Fin cfg1.W) → Buf (Elt F) ((cfg1.win w).arr.view.loc (c.tc : Thread nD τ)))
    (hG : ∀ w, G w = V' c (Pipeline.arrRef spec1 w)) :
    ((dat1 V q1 c).arrays G : sProp 𝕄)
      ⊢ Pipeline.arrBufs (Ix := Unit) (Name := ℕ) (U := UR sig nD τ) (Lvl := ℕ) spec1 c (V' c) := by
  rw [arrBufs1_eq, arrays1_eq, hG 0, hG 1, hG 2, hG 3, hG 4]
  have hjn : iprop((((c : Thread nD τ).loc main_v2_0) ↦{fullShare.left} V' c main_v2_0) ∗ (((c : Thread nD τ).loc main_v2_0) ↦{fullShare.right} V' c main_v2_0))
      ⊢ ((((c : Thread nD τ).loc main_v2_0) ↦{fullShare} V' c main_v2_0) : sProp 𝕄) :=
    (pointsTo_share (PosShare.mem_left_op_right fullShare)).2
  iintro ⟨Hl, Hr, H1, H2, H3⟩
  isplitl [Hl Hr]
  · iapply hjn
    isplitl [Hl] <;> iassumption
  isplitl [H1]; · iexact H1
  isplitl [H2]; · iexact H2
  iexact H3

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) q1 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`. Its six arrays are
    distinct buffers: split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Two of its windows read
    one array: the four buffers behind its five windows are split out of the unscoped buffers (`unscopedBufs_split₀`),
    the shared one dealt to its two windows by halves (`arrays1_split`), and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) q1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hs := Pipeline.unscopedBufs_split₀ (Ix := Unit) (Name := ℕ) (U := UR sig nD τ) (Lvl := ℕ) (Val := Elt F) cfgs (1 : Fin 2) winFacts₀1.arr_unscoped c (V2 m ρ c)
    rw [Pipeline.unscopedBufs_held] at hs
    have hs' : (StableHlo.held (c : Thread nD τ) (Pipeline.ucRefs τ sig) (W2 m ρ c) : sProp 𝕄)
        ⊢ iprop(Pipeline.arrBufs spec1 c (V2 m ρ c) ∗ Pipeline.unscopedRest spec1 c (V2 m ρ c)) := by rw [hs]; exact .rfl
    have hsplit := arrays1_split c (V2 m ρ)
    iintro ⟨⟨Hub, Hp, HO⟩, -, -⟩
    ihave H := hs' $$ Hub
    icases H with ⟨Hab, Hrest⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) q1 c)
    unfold Pipeline.ΦA
    iintro ⟨Hp, -, Hr⟩
    isplitl [Hr]; · iexact Hr
    iexact Hp
  hout c := by
    rw [Pipeline.ownSems0_none]
    refine BIBase.Entails.trans (hout1 (V2 m ρ) q1 c) ?_
    unfold Pipeline.ΦA
    iintro ⟨Hr, Hp⟩
    isplitl [Hp]; · iexact Hp
    isplitr; · iempintro
    iexact Hr
  hexit c := by
    have hs := Pipeline.unscopedBufs_split₀ (Ix := Unit) (Name := ℕ) (U := UR sig nD τ) (Lvl := ℕ) (Val := Elt F) cfgs (1 : Fin 2) winFacts₀1.arr_unscoped c (V3 m ρ c)
    rw [Pipeline.unscopedBufs_held] at hs
    have hjoin := arrays1_join c (V2 m ρ) (V3 m ρ) ((dat1 (V2 m ρ) q1 c).arrAt · cfg1.N) (hF1 m ρ c)
    have hs' : iprop(Pipeline.arrBufs spec1 c (V3 m ρ c) ∗ Pipeline.unscopedRest spec1 c (V3 m ρ c))
        ⊢ (StableHlo.held (c : Thread nD τ) (Pipeline.ucRefs τ sig) (W3 m ρ c) : sProp 𝕄) := by rw [hs]; exact .rfl
    have hrest : (Pipeline.unscopedRest (Ix := Unit) (Name := ℕ) (U := UR sig nD τ) (Lvl := ℕ) spec1 c (V2 m ρ c) : sProp 𝕄)
        = Pipeline.unscopedRest spec1 c (V3 m ρ c) := by
      unfold Pipeline.unscopedRest
      exact bigSep_congr fun b hb => by rw [hrest1 m ρ c b (Finset.mem_sdiff.mp hb).2]
    have hrest' : (Pipeline.unscopedRest (Ix := Unit) (Name := ℕ) (U := UR sig nD τ) (Lvl := ℕ) spec1 c (V2 m ρ c) : sProp 𝕄)
        ⊢ Pipeline.unscopedRest spec1 c (V3 m ρ c) := by rw [hrest]
    iintro ⟨Ha, HO, HY, Hrest⟩
    imodintro
    isplitl [Ha Hrest]
    · iapply hs'
      isplitl [Ha]
      · iapply hjoin; iexact Ha
      iapply hrest'; iexact Hrest
    isplitl [HY]; · iexact HY
    unfold Pipeline.Dat.owesAt Pipeline.owesWithin
    icases HO with ⟨%W, -, HO⟩; iexists W; iexact HO

/-! ## @main as segments, and the launch -/

/-- @main's four segments in order: the labels' two reshapes, the two regions, the closing reshape. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds every unscoped buffer of every core at the last boundary's contents `W4`: the launch over
    the four segments, the last thread state read against the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show iprop(StableHlo.held (c : Thread nD τ) (Pipeline.ucRefs τ sig) (W4 m ρ c) ∗ R c)
          ⊢ (iprop(Tₙ m ρ c ∗ ∃ W, owes (c : Thread nD τ) (0 : CellTallies nD τ sig Unit) W) : sProp 𝕄) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem hostOps0_writes_not (b : Ref sig .tc) (h0 : b ≠ main_v0) (h1 : b ≠ main_v1) (V : Valuation τ sig (Elt F)) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))
theorem hostOps2_writes_not (b : Ref sig .tc) (h : b ≠ main_v4) (V : Valuation τ sig (Elt F)) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

/-- The feature matrix reaches the end as launched: no reshape writes it, region 0 only reads it, region 1 bypasses it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_writes_not main_arg0 (by decide) _
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := hostOps0_writes_not main_arg0 (by decide) (by decide) _
    _ = m ((c : Thread nD τ).loc main_arg0) := rfl
/-- So do the labels: only the reshapes read them. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps2_writes_not main_arg1 (by decide) _
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := hostOps0_writes_not main_arg1 (by decide) (by decide) _
    _ = m ((c : Thread nD τ).loc main_arg1) := rfl

/-- THE FRAME at any `F`: the run's final state read at the two arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run m ρ)

end Cert.Kernel.Fr

end
-- ==== Proof.KI.R0Body.lean ====
/- REGION 0 of @main (custom_call 0, the distance and mask kernel), at any scalar field F and at a PARAMETER V, the
   TensorCore's buffer contents when the region is entered: each window's block at a point (iblk0), what the body
   leaves in each output window's buffer as a function of the input blocks (out0_3, out0_4, out0_5), the body's triple
   (sound_kernel0), the pipeline's proof data (dat0) and the body obligation at every point (body_obligation0).
   The body is one control case; every load and every store is of a whole buffer. -/
import proofs.«102896_j14233521619194_2_alg».proof.Proof.Gen.KernelIdeal.Launch
import proofs.«102896_j14233521619194_2_alg».proof.Proof.Gen.KernelIdeal.Skeleton
import proofs.«102896_j14233521619194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 512 x 512 (View.cover_of_tiled): the structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 0 of @main: custom_call 0 (pipeline 0), at the entry contents V -/

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is V's (hA) and whose body leaves the block in place (hafter): the window is uncut and never
    idle (Dat.before_in_eq_fetched). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S512x128 := Rect.unit (s := S512x128) ![0, 0] S512x128.size inb_S512x128_S512x128_0_0
abbrev r0_1 : Rect S512x512 := Rect.unit (s := S512x512) ![0, 0] S512x512.size inb_S512x512_S512x512_0_0
abbrev r0_2 : Rect S512x1 := Rect.unit (s := S512x1) ![0, 0] S512x1.size inb_S512x1_S512x1_0_0
abbrev r0_3 : Rect S1x512 := Rect.unit (s := S1x512) ![0, 0] S1x512.size inb_S1x512_S1x512_0_0

/-! ## What the body leaves in each output window's buffer -/

/-- Window 3's staging buffer after the body, from input window 0's block: its one store as a piece
    (View.canon); the payload is the skeleton's k0_pay2 of the block as loaded. -/
def out0_3 (x0 : Vec F S512x128 .f32) : Vec F S512x512 .f32 :=
  View.canon [⟨r0_1, k0_pay2 (View.ld x0 r0_0)⟩]

/-- Window 4's staging buffer after the body, from input windows 1 and 2's blocks: its one store as a piece;
    the payload is the skeleton's k0_pay4 of the two blocks as loaded. -/
def out0_4 (x1 : Vec F S512x1 .i32) (x2 : Vec F S1x512 .i32) : Vec F S512x512 .f32 :=
  View.canon [⟨r0_1, k0_pay4 (View.ld x1 r0_2) (View.ld x2 r0_3)⟩]

/-- Window 5's staging buffer after the body, from input windows 1 and 2's blocks: its one store as a piece;
    the payload is the skeleton's k0_pay1 of k0_pay3 of the two blocks as loaded and of the constant k0_pay5. -/
def out0_5 (x1 : Vec F S512x1 .i32) (x2 : Vec F S1x512 .i32) : Vec F S512x512 .f32 :=
  View.canon [⟨r0_1, k0_pay1 (k0_pay3 (View.ld x1 r0_2) (View.ld x2 r0_3)) (k0_pay5 (F := F))⟩]

/-- One whole-buffer store tiles the 512 x 512 buffer (the tiling arithmetic is checked by evaluation), so it covers it. -/
theorem cover0_o (p0 : Vec F S512x512 .f32) (y : S512x512.Idx) :
    ∃ pc ∈ ([⟨r0_1, p0⟩] : List (View.Piece (Elt F) S512x512 .f32)), y ∈ pc.1.set :=
  View.cover_of_tiled [⟨r0_1, p0⟩] S512x512.size (by rfl) y

/-! ## The body's triple -/

set_option maxHeartbeats 1000000 in
/-- The kernel body on whole staging memrefs, the inputs' at read contents x0, x1, x2 and the outputs' at anything,
    runs to the continuation holding the inputs' as they were and each output's at out0_W of the inputs': the printed
    functions are their skeletons, which are run operation by operation, through the part call. -/
theorem sound_kernel0 (c : Dev nD) (E : Set ℕ) (i : grid0.Coords)
    (arg1 : Memref sig .tc .vmem S512x128 .f32) (harg1 : arg1.IsWhole) (arg2 : Memref sig .tc .vmem S512x1 .i32) (harg2 : arg2.IsWhole)
    (arg3 : Memref sig .tc .vmem S1x512 .i32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .f32) (harg6 : arg6.IsWhole)
    (x0 : Vec F S512x128 .f32) (x1 : Vec F S512x1 .i32) (x2 : Vec F S1x512 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x1 x2)
            ∗ owns (c : Thread nD τ) arg6 fullShare (out0_5 x1 x2)) -∗ K ⟨⟩))
      ⊢ wp frame (wpE (defs₀ (F := F)) Variants.none c none) E (cc0__dist_mask_kernel i arg1 harg1 arg2 harg2 arg3 harg3 arg4 harg4 arg5 harg5 arg6 harg6) K := by
  simp only [cc0__dist_mask_kernel_eq_skeleton, k0_part1_eq_skeleton]; unfold cc0__dist_mask_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The pipeline's proof data -/

/-- The proof data of pipeline 0 on core c: the arrays as the region finds them (V); after the body at point t each
    input's buffer at its block and each output's at out0_W of the input blocks; the invariant is the scoped rest and
    the generator register, untouched (ΦA); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 1 t) (iblk0 V c 2 t)
    | ⟨5, _⟩ => out0_5 (iblk0 V c 1 t) (iblk0 V c 2 t)
  Φ _ := Pipeline.ΦA spec0 c
  q _ := fullShare
  owed _ := 0

/-- The proof data's arrays are the region-entry contents (the definition projected, never compared by unfolding). -/
theorem A_eq0 (c : Dev nD) (w : Fin cfg0.W) : (dat0 V c).A w = V c (Pipeline.arrRef spec0 w) := by
  dsimp only [dat0]

/-- What the body leaves, window by window (the proof data's match reduced, never compared by unfolding). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 1 t) (iblk0 V c 2 t) := by dsimp only [dat0]
theorem after0_5 (c : Dev nD) (t : Fin cfg0.N) : (dat0 V c).after 5 t = out0_5 (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (before0_W), so sound_kernel0 applies; the invariant
    and the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.KI.R1Runs.lean ====
/- The second kernel region (the triplet-sum reduction over a 4x4x4 grid): what the three runs of its body share.
   The windows' blocks read off the region-entry contents; that an input window's staging buffer holds its block at
   every point; the body's two branch conditions in closed form over the 64 points (all coordinates 0: point 0; all
   coordinates 3: point 63); where the one output window is idle; the staging and scratch memrefs; and the class
   invariant unfolded into the accumulator scratch, the other region's staging buffers and the generator register. -/
import proofs.«102896_j14233521619194_2_alg».proof.Proof.Gen.KernelIdeal.Launch
import proofs.«102896_j14233521619194_2_alg».proof.Proof.Gen.KernelIdeal.Skeleton
import proofs.«102896_j14233521619194_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffer contents when the second kernel region is entered: a parameter of everything below.
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (`k1_h1`), from the grid coordinates (the scalar chain
    substituted): all three coordinates are 0. -/
abbrev cond1_0 (i : grid1.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at point 0 only — decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the body's second `scf.if` (`k1_h2`): all three coordinates are 3. -/
abbrev cond1_1 (i : grid1.Coords) : Prop := k1_cond2 i = 1#1
/-- It holds at point 63 only — decided over the grid. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle (the configuration's table `Cfg.idle`) -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- At the first point the configuration calls output 4 idle: the case stores nothing into it. -/
theorem idleAt1_4_A : ∀ t : Fin cfg1.N, cond1_0 (grid1.coords t) → ¬cond1_1 (grid1.coords t) → cfg1.idle 4 (grid1.coords t) = true := by decide +kernel
/-- At the first point the pipeline does not write output 4's block back. -/
theorem noFlush1_4_A : ∀ t : Fin cfg1.N, cond1_0 (grid1.coords t) → ¬cond1_1 (grid1.coords t) → (cfg1.win 4).flush t = false := by decide +kernel
/-- At the middle points the configuration calls output 4 idle: the case stores nothing into it. -/
theorem idleAt1_4_B : ∀ t : Fin cfg1.N, ¬cond1_0 (grid1.coords t) → ¬cond1_1 (grid1.coords t) → cfg1.idle 4 (grid1.coords t) = true := by decide +kernel
/-- At the middle points the pipeline does not write output 4's block back. -/
theorem noFlush1_4_B : ∀ t : Fin cfg1.N, ¬cond1_0 (grid1.coords t) → ¬cond1_1 (grid1.coords t) → (cfg1.win 4).flush t = false := by decide +kernel
/-- At the last point the configuration calls output 4 live: the case stores into it. -/
theorem liveAt1_4_C : ∀ t : Fin cfg1.N, ¬cond1_0 (grid1.coords t) → cond1_1 (grid1.coords t) → cfg1.idle 4 (grid1.coords t) = false := by decide +kernel

/-! ## The staging and scratch memrefs -/

/-- The one staging buffer of output window 4, through which its contents are stated. -/
abbrev VO1_4 : View sig .tc .vmem S1x1 .f32 := (Memref.whole cc1_stg4_0 : Memref sig .tc .vmem S1x1 .f32).view
/-- Each window's current staging memref at point `t`, spelled as the pipeline passes it (`bodyAt1`), and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The scratch operand: a whole scoped buffer of the kernel's own, passed beside the windows. -/
abbrev scM1_0 : Memref sig .tc .vmem S1x1 .f32 := Memref.whole cc1_scratch0
/-- The accumulator the kernel carries between points, as a view: what it holds is stated through it. -/
abbrev VS1_0 : View sig .tc .vmem S1x1 .f32 := scM1_0.view

/-! ## The class invariant, opened -/

/-- The first kernel region's six staging buffers, each whole at some contents: scoped buffers that are no staging
    buffer of this region, which its body never touches. They ride along as one conjunct. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f))

/-- The class invariant with the scratch operand as a memref owned at some contents, beside the other region's staging
    buffers and the generator register: what the body obligation hands the run and takes back. -/
theorem PhiA1_eq (c : Dev nD) :
    (Pipeline.ΦA spec1 c : sProp 𝕄)
      = iprop(iprop(others1 c ∗ (∃ d, owns (c : Thread nD τ) scM1_0 fullShare d)) ∗ (∃ r, prngReg c r)) := by
  unfold Pipeline.ΦA others1; rw [scopedRest1_eq]; simp only [scM1_0, owns_whole]
  refine BI.equiv_iff.mp ⟨?_, ?_⟩
  · show (_ : sProp 𝕄) ⊢ _
    iintro ⟨⟨A0, A1, A2, A3, A4, A5, HS⟩, Hg⟩
    isplitr [Hg]; swap; · iexact Hg
    isplitr [HS]; swap; · iexact HS
    isplitl [A0]; · iexact A0
    isplitl [A1]; · iexact A1
    isplitl [A2]; · iexact A2
    isplitl [A3]; · iexact A3
    isplitl [A4]; · iexact A4
    iexact A5
  · show (_ : sProp 𝕄) ⊢ _
    iintro ⟨⟨⟨A0, A1, A2, A3, A4, A5⟩, HS⟩, Hg⟩
    isplitr [Hg]; swap; · iexact Hg
    isplitl [A0]; · iexact A0
    isplitl [A1]; · iexact A1
    isplitl [A2]; · iexact A2
    isplitl [A3]; · iexact A3
    isplitl [A4]; · iexact A4
    isplitl [A5]; · iexact A5
    iexact HS

end Cert.KernelIdeal.Fr

end
-- ==== Proof.KI.R1RunA.lean ====
/- The second kernel region's body run at the grid's FIRST point (all coordinates 0): the accumulator is zeroed, then
   the tile's sum is added to it; nothing is stored into the output. One module per case of the two conditionals. -/
import proofs.«102896_j14233521619194_2_alg».proof.Proof.KI.R1Runs

-- membership in a rectangle of full extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffer contents when the second kernel region is entered: a parameter of everything below.
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator scratch, as pieces (last first),
    in this case of the two conditionals, WITH the proof that on whole memrefs — the four inputs' at their contents, the output's (no store here: the window is idle and not written back) at contents `xi4` handed back untouched, the scratch at anything — the body runs to the
    continuation holding the inputs' as they were and the scratch with its pieces written (`LS0`): the printed functions are their skeletons,
    which the executor runs, each `scf.if` decided by the case's hypotheses; the pieces are the witness the run finds. -/
noncomputable def kernelRun1_A (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i)
    (x0 : Vec F S128x128 .f32) (x1 : Vec F S128x128 .f32) (x2 : Vec F S128x128 .f32) (x3 : Vec F S128x128 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__triplet_sum_kernel i arg3 harg3 arg4 harg4 arg5 harg5 arg6 harg6 arg7 harg7 arg8 harg8) K } := by
  refine ⟨[], ?_, fun xi4 E K => ?run⟩
  case run =>
    simp only [cc1__triplet_sum_kernel_eq_skeleton]; unfold cc1__triplet_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.R1RunB.lean ====
/- The second kernel region's body run at a MIDDLE point (neither the first nor the last): the tile's sum is added to
   the accumulator the point before left; nothing is stored into the output. One module per case of the two conditionals. -/
import proofs.«102896_j14233521619194_2_alg».proof.Proof.KI.R1RunA

-- membership in a rectangle of full extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffer contents when the second kernel region is entered: a parameter of everything below.
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator scratch, as pieces (last first),
    in this case of the two conditionals, WITH the proof that on whole memrefs — the four inputs' at their contents, the output's (no store here: the window is idle and not written back) at contents `xi4` handed back untouched, the scratch at the contents the point before left (`xs0`) — the body runs to the
    continuation holding the inputs' as they were and the scratch with its pieces written (`LS0`): the printed functions are their skeletons,
    which the executor runs, each `scf.if` decided by the case's hypotheses; the pieces are the witness the run finds. -/
noncomputable def kernelRun1_B (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i)
    (x0 : Vec F S128x128 .f32) (x1 : Vec F S128x128 .f32) (x2 : Vec F S128x128 .f32) (x3 : Vec F S128x128 .f32) (xs0 : Vec F S1x1 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__triplet_sum_kernel i arg3 harg3 arg4 harg4 arg5 harg5 arg6 harg6 arg7 harg7 arg8 harg8) K } := by
  refine ⟨[], ?_, fun xi4 E K => ?run⟩
  case run =>
    simp only [cc1__triplet_sum_kernel_eq_skeleton]; unfold cc1__triplet_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.R1RunC.lean ====
/- The second kernel region's body run at the grid's LAST point (all coordinates 3): the tile's sum is added to the
   accumulator the point before left, and the accumulator is copied to the output. One module per case of the two conditionals. -/
import proofs.«102896_j14233521619194_2_alg».proof.Proof.KI.R1RunB

-- membership in a rectangle of full extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffer contents when the second kernel region is entered: a parameter of everything below.
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the accumulator scratch, as pieces (last first),
    in this case of the two conditionals, WITH the proof that on whole memrefs — the four inputs' at their contents, the output's at anything, the scratch at the contents the point before left (`xs0`) — the body runs to the
    continuation holding the inputs' as they were, the output's buffer with its pieces written (`L4`) and the scratch with its pieces written (`LS0`): the printed functions are their skeletons,
    which the executor runs, each `scf.if` decided by the case's hypotheses; the pieces are the witness the run finds. -/
noncomputable def kernelRun1_C (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i)
    (x0 : Vec F S128x128 .f32) (x1 : Vec F S128x128 .f32) (x2 : Vec F S128x128 .f32) (x3 : Vec F S128x128 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__triplet_sum_kernel i arg3 harg3 arg4 harg4 arg5 harg5 arg6 harg6 arg7 harg7 arg8 harg8) K } := by
  refine ⟨?_, ?_, fun E K => ?run⟩
  case run =>
    simp only [cc1__triplet_sum_kernel_eq_skeleton]; unfold cc1__triplet_sum_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI.R1Body.lean ====
/- The second kernel region's body obligation. What the output's staging buffer and the accumulator scratch hold after
   each of the 64 points (`outsAt1`: the case the closed forms select at the point, run at the point's memrefs and input
   blocks, over what the point before left in the scratch); the invariant that carries the scratch's contents from point
   to point (`PhiS1`); the proof data over region-entry contents `V` and input shares `q` (both parameters); the body at
   a generic point, case by case; and the passage between the class invariant and `PhiS1` at the region's two ends. -/
import proofs.«102896_j14233521619194_2_alg».proof.Proof.KI.R1RunC

-- membership in a rectangle of full extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffer contents when the second kernel region is entered: a parameter of everything below.
variable (V : (c : Dev nD) → (b : Ref sig .tc) → Buf (Elt F) ((c : Thread nD τ).loc b))

/-- Case A stores nothing into the output (the window is idle at its points and not written back there): no pieces —
    a placeholder (junk read back) that nothing consults, since at these points the window is neither written back nor
    read at the next point. -/
def out1_A_4 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i)
    (x0 : Vec F S128x128 .f32) (x1 : Vec F S128x128 .f32) (x2 : Vec F S128x128 .f32) (x3 : Vec F S128x128 .f32) : Vec F S1x1 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- Case A's pieces for the accumulator scratch, which the kernel carries between points, cover it: whole-buffer stores of the 1x1 scratch. -/
theorem scover1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i)
    (x0 : Vec F S128x128 .f32) (x1 : Vec F S128x128 .f32) (x2 : Vec F S128x128 .f32) (x3 : Vec F S128x128 .f32) (y : S1x1.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1x1.size (by sl_kernel_rfl) y

/-- What case A leaves in the accumulator scratch: its pieces read back over junk. -/
def sout1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i)
    (x0 : Vec F S128x128 .f32) (x1 : Vec F S128x128 .f32) (x2 : Vec F S128x128 .f32) (x3 : Vec F S128x128 .f32) : Vec F S1x1 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- Case B stores nothing into the output (the window is idle at its points and not written back there): no pieces —
    a placeholder (junk read back) that nothing consults, since at these points the window is neither written back nor
    read at the next point. -/
def out1_B_4 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i)
    (x0 : Vec F S128x128 .f32) (x1 : Vec F S128x128 .f32) (x2 : Vec F S128x128 .f32) (x3 : Vec F S128x128 .f32) (xs0 : Vec F S1x1 .f32) : Vec F S1x1 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- Case B's pieces for the accumulator scratch, which the kernel carries between points, cover it: whole-buffer stores of the 1x1 scratch. -/
theorem scover1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i)
    (x0 : Vec F S128x128 .f32) (x1 : Vec F S128x128 .f32) (x2 : Vec F S128x128 .f32) (x3 : Vec F S128x128 .f32) (xs0 : Vec F S1x1 .f32) (y : S1x1.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1x1.size (by sl_kernel_rfl) y

/-- What case B leaves in the accumulator scratch: its pieces read back over junk. -/
def sout1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i)
    (x0 : Vec F S128x128 .f32) (x1 : Vec F S128x128 .f32) (x2 : Vec F S128x128 .f32) (x3 : Vec F S128x128 .f32) (xs0 : Vec F S1x1 .f32) : Vec F S1x1 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- The last point's one store into the output tiles its 1x1 block, so its pieces cover it. -/
theorem cover1_C_4 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i)
    (x0 : Vec F S128x128 .f32) (x1 : Vec F S128x128 .f32) (x2 : Vec F S128x128 .f32) (x3 : Vec F S128x128 .f32) (xs0 : Vec F S1x1 .f32) (y : S1x1.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1x1.size (by sl_kernel_rfl) y

/-- What the last point leaves in the output's staging buffer: its pieces read back over junk. -/
def out1_C_4 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i)
    (x0 : Vec F S128x128 .f32) (x1 : Vec F S128x128 .f32) (x2 : Vec F S128x128 .f32) (x3 : Vec F S128x128 .f32) (xs0 : Vec F S1x1 .f32) : Vec F S1x1 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case C's pieces for the accumulator scratch, which the kernel carries between points, cover it: whole-buffer stores of the 1x1 scratch. -/
theorem scover1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i)
    (x0 : Vec F S128x128 .f32) (x1 : Vec F S128x128 .f32) (x2 : Vec F S128x128 .f32) (x3 : Vec F S128x128 .f32) (xs0 : Vec F S1x1 .f32) (y : S1x1.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1x1.size (by sl_kernel_rfl) y

/-- What case C leaves in the accumulator scratch: its pieces read back over junk. -/
def sout1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i)
    (x0 : Vec F S128x128 .f32) (x1 : Vec F S128x128 .f32) (x2 : Vec F S128x128 .f32) (x3 : Vec F S128x128 .f32) (xs0 : Vec F S1x1 .f32) : Vec F S1x1 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## What the output and the scratch hold after each point -/

/-- THE ACCUMULATION. What the output's staging buffer and the accumulator scratch hold after the body at position `n`
    (a pair: the output, then the scratch): the case the closed forms select at `n`, run at the point's memrefs and input
    blocks, the scratch read at what this leaves at `n - 1`. An assignment of the conditions no point meets is no case. -/
def outsAt1 (c : Dev nD) : (n : ℕ) → n < cfg1.N → Vec F S1x1 .f32 × Vec F S1x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : n + 1 = 0 then
      if h1 : n + 1 = 63 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : n + 1 = 63 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at the first point: case A's contents. -/
theorem outsAt1_A (c : Dev nD) (t : Fin cfg1.N) (h0 : t.val = 0) (h1 : ¬t.val = 63) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a middle point: case B's contents, over what the point before left. -/
theorem outsAt1_B (c : Dev nD) (t : Fin cfg1.N) (h0 : ¬t.val = 0) (h1 : ¬t.val = 63) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_neg h0).trans ((dif_neg h1).trans rfl)

/-- `outsAt1` at the last point: case C's contents, over what the point before left. -/
theorem outsAt1_C (c : Dev nD) (t : Fin cfg1.N) (h0 : ¬t.val = 0) (h1 : t.val = 63) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_neg h0).trans ((dif_pos h1).trans rfl)

/-- The region invariant before position `n`, the kernel CARRYING its accumulator between points: before the first point
    the class's (every scratch at anything); afterwards the other region's staging buffers, the accumulator at what the
    point before left in it (`outsAt1`'s second component), and the generator register at some state. -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(others1 c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2)) ∗ (∃ r, prngReg c r)) := by
  cases n with
  | zero => exact absurd rfl hz
  | succ n => rfl

/-! ## The region's proof data -/

/-- The proof data of the second kernel region on core `c`: the arrays as the region finds them (`V`); after the body at
    point `t` each input's buffer at its block and the output's at `outsAt1`; the invariant `PhiS1`; nothing owed; the
    inputs' shares a parameter (two windows read one array, so they cannot both hold its full share). -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q := q
  owed _ := 0

/-- The proof data's arrays are the region-entry contents: the definition projected. -/
theorem A_eq1 (q : Fin cfg1.W → PosShare TreeShare) (c : Dev nD) (w : Fin cfg1.W) : (dat1 V q c).A w = V c (Pipeline.arrRef spec1 w) := by
  dsimp only [dat1]

/-- The invariant at a point's start (the proof data at `t.castSucc`), restated at `t.val`. -/
theorem PhiS1_castSucc (q : Fin cfg1.W → PosShare TreeShare) (c : Dev nD) (t : Fin cfg1.N) :
    (dat1 V q c).Φ t.castSucc = PhiS1 V c t.val (Nat.le_of_lt t.isLt) := by
  dsimp only [dat1]; simp only [Fin.coe_castSucc]

/-- What the body leaves, window by window (the proof data's `match` reduced). -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = (outsAt1 V c t.val t.isLt).1 := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d

/-! ## The body obligation, at a generic point -/

/-- What the body is called with at point `t` (the body obligation's precondition, the windows one by one), -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t)

set_option maxHeartbeats 4800000 in
/-- The body at any point: the inputs' memrefs hold their blocks (`before1_W`); the closed forms say which case the point
    is in; so the run applies; the invariant hands the body the accumulator at what the point before left (`PhiS1_pos`; at
    anything at the first point, `PhiS1_zero`), the other region's staging buffers and the generator register, and takes the
    accumulator back at this point's contents (`PhiS1_succ`, its pieces covering it); the core owes nothing throughout. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3]
  rw [show (dat1 V q c).owesAt () t.succ = (dat1 V q c).owesAt () t.castSucc from rfl]
  rw [show (dat1 V q c).Φ t.succ = PhiS1 V c (t.val + 1) t.isLt from rfl, PhiS1_succ]
  have hN : t.val < 64 := lt_of_lt_of_eq t.isLt (show cfg1.N = 64 from N_1)
  by_cases h0 : t.val = 0
  · by_cases h1 : t.val = 63
    · exfalso; omega
    · -- the first point
      rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [Dat.leavesExact_idle (dat1 V q c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      rw [PhiS1_castSucc V q c t, PhiS1_zero V c _ _ h0, PhiA1_eq]
      iintro ⟨⟨⟨Hr, HS0⟩, Hg⟩, Ho, ⟨%d0, H0⟩, ⟨%d1, H1⟩, ⟨%d2, H2⟩, ⟨%d3, H3⟩, ⟨%d4, H4⟩⟩
      iapply (((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _))
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · by_cases h1 : t.val = 63
    · -- the last point
      rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS1_castSucc V q c t, PhiS1_pos V c _ _ h0]
      iintro ⟨⟨⟨Hr, HS0⟩, Hg⟩, Ho, ⟨%d0, H0⟩, ⟨%d1, H1⟩, ⟨%d2, H2⟩, ⟨%d3, H3⟩, ⟨%d4, H4⟩⟩
      iapply (((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _))
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · -- a middle point
      rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [Dat.leavesExact_idle (dat1 V q c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS1_castSucc V q c t, PhiS1_pos V c _ _ h0]
      iintro ⟨⟨⟨Hr, HS0⟩, Hg⟩, Ho, ⟨%d0, H0⟩, ⟨%d1, H1⟩, ⟨%d2, H2⟩, ⟨%d3, H3⟩, ⟨%d4, H4⟩⟩
      iapply (((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _))
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

/-- What the launch hands the region (the class invariant) is the invariant before the first point. -/
theorem hin1 (q : Fin cfg1.W → PosShare TreeShare) (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After any point but the first the invariant gives the class invariant back: the accumulator's named contents are forgotten. -/
theorem Phi_out1 (q : Fin cfg1.W → PosShare TreeShare) (c : Dev nD) (t : Fin (cfg1.N + 1)) (ht : t.val ≠ 0) : (dat1 V q c).Φ t ⊢ Pipeline.ΦA spec1 c := by
  rw [show (dat1 V q c).Φ t = PhiS1 V c t.val (Nat.le_of_lt_succ t.isLt) from rfl, PhiS1_pos V c _ _ ht, PhiA1_eq]
  iintro ⟨⟨Hr, HS0⟩, Hg⟩
  isplitl [Hr HS0]
  · isplitl [Hr]; · iexact Hr
    iexists _; iexact HS0
  iexact Hg

/-- The same after the last point. -/
theorem hout1 (q : Fin cfg1.W → PosShare TreeShare) (c : Dev nD) : (dat1 V q c).Φ (Fin.last cfg1.N) ⊢ Pipeline.ΦA spec1 c :=
  Phi_out1 V q c _ (by rw [Fin.val_last]; have : cfg1.N = 64 := N_1; omega)

end Cert.KernelIdeal.Fr

end
-- ==== Proof.KI.RunMain.lean ====
import proofs.«102896_j14233521619194_2_alg».proof.Proof.Gen.KernelIdeal.Launch
import proofs.«102896_j14233521619194_2_alg».proof.Proof.Gen.KernelIdeal.Skeleton
import proofs.«102896_j14233521619194_2_alg».proof.Proof.Gen.KernelIdeal.Points
import proofs.«102896_j14233521619194_2_alg».proof.Proof.KI.R0Body
import proofs.«102896_j14233521619194_2_alg».proof.Proof.KI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the two regions between the host reshapes

## The buffer contents at each boundary -/

/-- Core `c`'s buffers at launch. -/
abbrev W0 : Dev nD → Valuation τ sig (Elt F) := fun c b => (s₀ m ρ).mem ((c : Dev nD), b)
/-- After the two reshapes of the labels (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its three result arrays at what its one grid point wrote back, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The shares region 1's input windows hold of their arrays: the distance matrix is read through two windows, each
    holding one half of it; the two masks through one window each. -/
def q1 : Fin cfg1.W → PosShare TreeShare
  | ⟨0, _⟩ => fullShare.left
  | ⟨1, _⟩ => fullShare.right
  | _ => fullShare

/-- At region 1's exit: the scalar result at what the last grid point wrote back, every other buffer as entered (the
    three matrices are only read). -/
def W3 (c : Dev nD) : Valuation τ sig (Elt F) :=
  Function.update (W2 m ρ c) main_v3 ((dat1 (V2 m ρ) q1 c).arrAt 4 cfg1.N)
abbrev V3 : (c : Dev nD) → (b : Ref sig .tc) → Buf (Elt F) ((c : Thread nD τ).loc b) := fun c b => W3 m ρ c b
theorem W3_v3 (c : Dev nD) : W3 m ρ c main_v3 = (dat1 (V2 m ρ) q1 c).arrAt 4 cfg1.N := by
  unfold W3; exact Function.update_self ..
theorem W3_of_ne (c : Dev nD) (b : Ref sig .tc) (hb : b ≠ main_v3) : W3 m ρ c b = W2 m ρ c b := by
  unfold W3; exact Function.update_of_ne (StableHlo.devRef_ne_of_ne hb) ..
/-- After the closing reshape. -/
abbrev W4 : Dev nD → Valuation τ sig (Elt F) := fun c => StableHlo.after hostOps2 (W3 m ρ c)

/-- At region 1's exit every one of its arrays holds what the exit contents say: the inputs are never written
    (`Dat.arrAt_in`), the result is the updated buffer. -/
theorem hF1 (c : Dev nD) (w : Fin cfg1.W) : (dat1 (V2 m ρ) q1 c).arrAt w cfg1.N = V3 m ρ c (Pipeline.arrRef spec1 w) := by
  match w with
  | ⟨0, _⟩ => exact ((dat1 (V2 m ρ) q1 c).arrAt_in 0 rfl _).trans ((A_eq1 (V2 m ρ) q1 c 0).trans (W3_of_ne m ρ c _ (by decide)).symm)
  | ⟨1, _⟩ => exact ((dat1 (V2 m ρ) q1 c).arrAt_in 1 rfl _).trans ((A_eq1 (V2 m ρ) q1 c 1).trans (W3_of_ne m ρ c _ (by decide)).symm)
  | ⟨2, _⟩ => exact ((dat1 (V2 m ρ) q1 c).arrAt_in 2 rfl _).trans ((A_eq1 (V2 m ρ) q1 c 2).trans (W3_of_ne m ρ c _ (by decide)).symm)
  | ⟨3, _⟩ => exact ((dat1 (V2 m ρ) q1 c).arrAt_in 3 rfl _).trans ((A_eq1 (V2 m ρ) q1 c 3).trans (W3_of_ne m ρ c _ (by decide)).symm)
  | ⟨4, _⟩ => exact (W3_v3 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨4, Finset.mem_univ _, e.symm⟩)

/-! ## One array behind two windows: the shares -/

/-- The buffers behind region 1's windows, one by one: four buffers for five windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2_0) ↦{fullShare} V main_v2_0) ∗ (((c : Thread nD τ).loc main_v2_1) ↦{fullShare} V main_v2_1)
          ∗ (((c : Thread nD τ).loc main_v2_2) ↦{fullShare} V main_v2_2) ∗ (((c : Thread nD τ).loc main_v3) ↦{fullShare} V main_v3)) := by
  unfold Pipeline.arrBufs
  exact bigSep_eq_bigSepL_of_eq [main_v2_0, main_v2_1, main_v2_2, main_v3] (by decide) (by decide) _

/-- Region 1's windowed arrays at contents `G`, one by one: the distance matrix at its two halves. -/
theorem arrays1_eq (c : Dev nD) (V : (c : Dev nD) → (b : Ref sig .tc) → Buf (Elt F) ((c : Thread nD τ).loc b))
    (G : (w : Fin cfg1.W) → Buf (Elt F) ((cfg1.win w).arr.view.loc (c.tc : Thread nD τ))) :
    ((dat1 V q1 c).arrays G : sProp 𝕄)
      = iprop((((c : Thread nD τ).loc main_v2_0) ↦{fullShare.left} G 0) ∗ (((c : Thread nD τ).loc main_v2_0) ↦{fullShare.right} G 1)
          ∗ (((c : Thread nD τ).loc main_v2_1) ↦{fullShare} G 2) ∗ (((c : Thread nD τ).loc main_v2_2) ↦{fullShare} G 3)
          ∗ (((c : Thread nD τ).loc main_v3) ↦{fullShare} G 4)) := by
  unfold Dat.arrays
  rw [bigSep_congr (Ψ := fun w : Fin cfg1.W => (((c : Thread nD τ).loc (Pipeline.arrRef spec1 w)) ↦{(dat1 V q1 c).share w} G w : sProp 𝕄))
    (fun w _ => by rw [(arr_whole1 w).set_eq_univ])]
  rw [bigSep_W1]
  rfl

/-- ENTRY of region 1, the arrays' part: the four buffers behind its five windows, each whole at the full share, give
    every window its array — the distance matrix split into its two halves, one per window reading it. -/
theorem arrays1_split (c : Dev nD) (V : (c : Dev nD) → (b : Ref sig .tc) → Buf (Elt F) ((c : Thread nD τ).loc b)) :
    (Pipeline.arrBufs (Ix := Unit) (Name := ℕ) (U := UR sig nD τ) (Lvl := ℕ) spec1 c (V c) : sProp 𝕄)
      ⊢ (dat1 V q1 c).arrays ((dat1 V q1 c).arrAt · 0) := by
  rw [arrBufs1_eq, arrays1_eq]
  have hsp : ((((c : Thread nD τ).loc main_v2_0) ↦{fullShare} V c main_v2_0) : sProp 𝕄)
      ⊢ iprop((((c : Thread nD τ).loc main_v2_0) ↦{fullShare.left} V c main_v2_0) ∗ (((c : Thread nD τ).loc main_v2_0) ↦{fullShare.right} V c main_v2_0)) :=
    (pointsTo_share (PosShare.mem_left_op_right fullShare)).1
  iintro ⟨H0, H1, H2, H3⟩
  ihave H0' := hsp $$ H0
  icases H0' with ⟨Hl, Hr⟩
  isplitl [Hl]; · iexact Hl
  isplitl [Hr]; · iexact Hr
  isplitl [H1]; · iexact H1
  isplitl [H2]; · iexact H2
  iexact H3

/-- EXIT of region 1, the arrays' part: the windows' arrays at contents that agree on the shared matrix give the four
    buffers back whole. -/
theorem arrays1_join (c : Dev nD) (V V' : (c : Dev nD) → (b : Ref sig .tc) → Buf (Elt F) ((c : Thread nD τ).loc b))
    (G : (w : Fin cfg1.W) → Buf (Elt F) ((cfg1.win w).arr.view.loc (c.tc : Thread nD τ)))
    (hG : ∀ w, G w = V' c (Pipeline.arrRef spec1 w)) :
    ((dat1 V q1 c).arrays G : sProp 𝕄)
      ⊢ Pipeline.arrBufs (Ix := Unit) (Name := ℕ) (U := UR sig nD τ) (Lvl := ℕ) spec1 c (V' c) := by
  rw [arrBufs1_eq, arrays1_eq, hG 0, hG 1, hG 2, hG 3, hG 4]
  have hjn : iprop((((c : Thread nD τ).loc main_v2_0) ↦{fullShare.left} V' c main_v2_0) ∗ (((c : Thread nD τ).loc main_v2_0) ↦{fullShare.right} V' c main_v2_0))
      ⊢ ((((c : Thread nD τ).loc main_v2_0) ↦{fullShare} V' c main_v2_0) : sProp 𝕄) :=
    (pointsTo_share (PosShare.mem_left_op_right fullShare)).2
  iintro ⟨Hl, Hr, H1, H2, H3⟩
  isplitl [Hl Hr]
  · iapply hjn
    isplitl [Hl] <;> iassumption
  isplitl [H1]; · iexact H1
  isplitl [H2]; · iexact H2
  iexact H3

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) q1 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`. Its six arrays are
    distinct buffers: split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Two of its windows read
    one array: the four buffers behind its five windows are split out of the unscoped buffers (`unscopedBufs_split₀`),
    the shared one dealt to its two windows by halves (`arrays1_split`), and joined again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) q1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hs := Pipeline.unscopedBufs_split₀ (Ix := Unit) (Name := ℕ) (U := UR sig nD τ) (Lvl := ℕ) (Val := Elt F) cfgs (1 : Fin 2) winFacts₀1.arr_unscoped c (V2 m ρ c)
    rw [Pipeline.unscopedBufs_held] at hs
    have hs' : (StableHlo.held (c : Thread nD τ) (Pipeline.ucRefs τ sig) (W2 m ρ c) : sProp 𝕄)
        ⊢ iprop(Pipeline.arrBufs spec1 c (V2 m ρ c) ∗ Pipeline.unscopedRest spec1 c (V2 m ρ c)) := by rw [hs]; exact .rfl
    have hsplit := arrays1_split c (V2 m ρ)
    iintro ⟨⟨Hub, Hp, HO⟩, -, -⟩
    ihave H := hs' $$ Hub
    icases H with ⟨Hab, Hrest⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) q1 c)
    unfold Pipeline.ΦA
    iintro ⟨Hp, -, Hr⟩
    isplitl [Hr]; · iexact Hr
    iexact Hp
  hout c := by
    rw [Pipeline.ownSems0_none]
    refine BIBase.Entails.trans (hout1 (V2 m ρ) q1 c) ?_
    unfold Pipeline.ΦA
    iintro ⟨Hr, Hp⟩
    isplitl [Hp]; · iexact Hp
    isplitr; · iempintro
    iexact Hr
  hexit c := by
    have hs := Pipeline.unscopedBufs_split₀ (Ix := Unit) (Name := ℕ) (U := UR sig nD τ) (Lvl := ℕ) (Val := Elt F) cfgs (1 : Fin 2) winFacts₀1.arr_unscoped c (V3 m ρ c)
    rw [Pipeline.unscopedBufs_held] at hs
    have hjoin := arrays1_join c (V2 m ρ) (V3 m ρ) ((dat1 (V2 m ρ) q1 c).arrAt · cfg1.N) (hF1 m ρ c)
    have hs' : iprop(Pipeline.arrBufs spec1 c (V3 m ρ c) ∗ Pipeline.unscopedRest spec1 c (V3 m ρ c))
        ⊢ (StableHlo.held (c : Thread nD τ) (Pipeline.ucRefs τ sig) (W3 m ρ c) : sProp 𝕄) := by rw [hs]; exact .rfl
    have hrest : (Pipeline.unscopedRest (Ix := Unit) (Name := ℕ) (U := UR sig nD τ) (Lvl := ℕ) spec1 c (V2 m ρ c) : sProp 𝕄)
        = Pipeline.unscopedRest spec1 c (V3 m ρ c) := by
      unfold Pipeline.unscopedRest
      exact bigSep_congr fun b hb => by rw [hrest1 m ρ c b (Finset.mem_sdiff.mp hb).2]
    have hrest' : (Pipeline.unscopedRest (Ix := Unit) (Name := ℕ) (U := UR sig nD τ) (Lvl := ℕ) spec1 c (V2 m ρ c) : sProp 𝕄)
        ⊢ Pipeline.unscopedRest spec1 c (V3 m ρ c) := by rw [hrest]
    iintro ⟨Ha, HO, HY, Hrest⟩
    imodintro
    isplitl [Ha Hrest]
    · iapply hs'
      isplitl [Ha]
      · iapply hjoin; iexact Ha
      iapply hrest'; iexact Hrest
    isplitl [HY]; · iexact HY
    unfold Pipeline.Dat.owesAt Pipeline.owesWithin
    icases HO with ⟨%W, -, HO⟩; iexists W; iexact HO

/-! ## @main as segments, and the launch -/

/-- @main's four segments in order: the labels' two reshapes, the two regions, the closing reshape. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds every unscoped buffer of every core at the last boundary's contents `W4`: the launch over
    the four segments, the last thread state read against the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show iprop(StableHlo.held (c : Thread nD τ) (Pipeline.ucRefs τ sig) (W4 m ρ c) ∗ R c)
          ⊢ (iprop(Tₙ m ρ c ∗ ∃ W, owes (c : Thread nD τ) (0 : CellTallies nD τ sig Unit) W) : sProp 𝕄) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem hostOps0_writes_not (b : Ref sig .tc) (h0 : b ≠ main_v0) (h1 : b ≠ main_v1) (V : Valuation τ sig (Elt F)) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))
theorem hostOps2_writes_not (b : Ref sig .tc) (h : b ≠ main_v4) (V : Valuation τ sig (Elt F)) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

/-- The feature matrix reaches the end as launched: no reshape writes it, region 0 only reads it, region 1 bypasses it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_writes_not main_arg0 (by decide) _
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := hostOps0_writes_not main_arg0 (by decide) (by decide) _
    _ = m ((c : Thread nD τ).loc main_arg0) := rfl
/-- So do the labels: only the reshapes read them. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps2_writes_not main_arg1 (by decide) _
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := hostOps0_writes_not main_arg1 (by decide) (by decide) _
    _ = m ((c : Thread nD τ).loc main_arg1) := rfl

/-- THE FRAME at any `F`: the run's final state read at the two arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run m ρ)

end Cert.KernelIdeal.Fr

end
-- ==== Proof.Spec.lean ====
import Idealize.ShloMosaic.PureOps.Ideal
import Idealize.ShloMosaic.PureOps.Ideal.Laws
import Idealize.ShloMosaic.Lib.ValueIdx

/-!
# The triplet-margin total, as mathematics over the extended reals

Inputs: a matrix `x` of 512 rows and 128 columns, and 512 integer labels `y`.

* `sq x i = ∑ k, x(i,k)·x(i,k)` and `gram x i j = ∑ k, x(i,k)·x(j,k)`;
* `sqd x i j = max (sq i + sq j − 2·gram i j) 0`, and the distance is
  `dist(i,j) = if 0 < s then √(if 0 < s then s else 1) else 0` at `s = sqd x i j`;
* `pos(i,j) = [y i = y j]·[i ≠ j]` and `neg(i,j) = 1 − [y i = y j]`, with `[c]` the indicator `1` / `0`;
* `term(a,p,n) = max (dist(a,p) − dist(a,n) + 1/2) ε · pos(a,p) · neg(a,n)`;
* `total = ∑ a, ∑ p, ∑ n, term(a,p,n)` over `512³` triples, and `tileSum A Pb Nb` the same sum over the
  `128³` triples of one block `(A, Pb, Nb) ∈ 4³`.

The constants `2`, `1/2` and `ε` are kept as the extended reals their 32-bit words denote
(`0x40000000`, `0x3F000000`, `0x322BCC77`); their values are never needed.
-/

noncomputable section

open scoped BigOperators

namespace Cert.Triplet

open Idealize.ShloMosaic Idealize.ShloMosaic.ValueIdx

abbrev S512x128 : Shape := ⟨2, ![512, 128]⟩
abbrev S512 : Shape := ⟨1, ![512]⟩
abbrev S512x512 : Shape := ⟨2, ![512, 512]⟩

/-- The indicator of a decidable proposition: `1` where it holds, `0` where it does not. -/
def ind (c : Prop) [Decidable c] : EReal := if c then 1 else 0

/-- The squared norm of row `i`. -/
def sq (x : Vec Ideal S512x128 .f32) (i : Fin 512) : EReal :=
  ∑ k : Fin 128, x (ix2 i k) * x (ix2 i k)

/-- The inner product of rows `i` and `j`. -/
def gram (x : Vec Ideal S512x128 .f32) (i j : Fin 512) : EReal :=
  ∑ k : Fin 128, x (ix2 i k) * x (ix2 j k)

/-- The squared distance of rows `i` and `j` through the Gram matrix, cut off below at `0`. -/
def sqd (x : Vec Ideal S512x128 .f32) (i j : Fin 512) : EReal :=
  max (sq x i + sq x j - Ideal.ofBits .f32 0x40000000#32 * gram x i j) 0

/-- The distance from a squared distance `s`: its root where `s` is positive (the root is taken of `1`
    elsewhere and then discarded), `0` elsewhere. -/
def distOf (s : EReal) : EReal := if 0 < s then Ideal.sqrt (if 0 < s then s else 1) else 0

/-- The distance of rows `i` and `j`. -/
def dist (x : Vec Ideal S512x128 .f32) (i j : Fin 512) : EReal := distOf (sqd x i j)

/-- The positive mask: same label, different rows. -/
def pos (y : IVec S512 32) (i j : Fin 512) : EReal := ind (y (ix1 i) = y (ix1 j)) * ind (i ≠ j)

/-- The negative mask: different labels. -/
def neg (y : IVec S512 32) (i j : Fin 512) : EReal := 1 - ind (y (ix1 i) = y (ix1 j))

/-- The matrix of distances. -/
def distA (x : Vec Ideal S512x128 .f32) : Vec Ideal S512x512 .f32 :=
  fun ij => dist x (ij 0 : Fin 512) (ij 1 : Fin 512)

/-- The matrix of the positive mask. -/
def posA (y : IVec S512 32) : Vec Ideal S512x512 .f32 :=
  fun ij => pos y (ij 0 : Fin 512) (ij 1 : Fin 512)

/-- The matrix of the negative mask. -/
def negA (y : IVec S512 32) : Vec Ideal S512x512 .f32 :=
  fun ij => neg y (ij 0 : Fin 512) (ij 1 : Fin 512)

theorem distA_ix2 (x : Vec Ideal S512x128 .f32) (i j : Fin 512) : distA x (ix2 i j) = dist x i j := rfl
theorem posA_ix2 (y : IVec S512 32) (i j : Fin 512) : posA y (ix2 i j) = pos y i j := rfl
theorem negA_ix2 (y : IVec S512 32) (i j : Fin 512) : negA y (ix2 i j) = neg y i j := rfl

/-- One triple's term: the margin `D(a,p) − D(a,n) + 1/2` cut off below at `ε`, times the two masks. -/
def term (D P N : Vec Ideal S512x512 .f32) (a p n : Fin 512) : EReal :=
  max (D (ix2 a p) - D (ix2 a n) + Ideal.ofBits .f32 0x3F000000#32) (Ideal.ofBits .f32 0x322BCC77#32)
    * P (ix2 a p) * N (ix2 a n)

/-- The total over all `512³` triples. -/
def total (D P N : Vec Ideal S512x512 .f32) : EReal :=
  ∑ a : Fin 512, ∑ p : Fin 512, ∑ n : Fin 512, term D P N a p n

/-- Row `a` of block `A`: `128·A + a`. -/
abbrev blk (A : Fin 4) (a : Fin 128) : Fin 512 :=
  ⟨128 * A.val + a.val, by have := A.isLt; have := a.isLt; omega⟩

/-- The total over the `128³` triples of block `(A, Pb, Nb)`. -/
def tileSum (D P N : Vec Ideal S512x512 .f32) (A Pb Nb : Fin 4) : EReal :=
  ∑ a : Fin 128, ∑ p : Fin 128, ∑ n : Fin 128, term D P N (blk A a) (blk Pb p) (blk Nb n)

end Cert.Triplet

end
-- ==== Proof.KI.R0ValuePay.lean ====
/- The three payloads of custom_call 0's body, read at an index (i, j) of the 512 x 512 result, at the ideal values:
   the distance payload k0_pay2 is the distance of rows i and j through the Gram matrix (pay2_ix2); the same-label
   payload k0_pay3 is the indicator that the column's entry i equals the row's entry j (pay3_ix2); the positive-mask
   payload k0_pay4 is that indicator times the indicator of i ≠ j (pay4_ix2); the negative-mask payload, k0_pay1 of
   k0_pay3 and the constant one, is one minus it (pay1_ix2). Before them, each non-pointwise operation of the payloads
   read at an index: the lane sum, the cast of a vector to a column, the column and row broadcasts, the transpose of a
   column, and the product with a transpose as a sum over the contraction index. -/
import proofs.«102896_j14233521619194_2_alg».proof.Proof.Gen.KernelIdeal.Skeleton
import proofs.«102896_j14233521619194_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Cert.KernelIdeal Cert.KernelIdeal.Gen
open Idealize.ShloMosaic Idealize.ShloMosaic.ValueIdx
open scoped BigOperators

/-! ## The non-pointwise operations of the distance payload, each read at an index -/

/-- The sum along the lanes of a 512 x 128 array, at row r. -/
theorem laneSum_apply (w : FVec Ideal S512x128 .f32) (r : Fin 512) :
    multiReduction (F := Ideal) .add [1] S512 w 0x00000000#32 reduces_S512x128_S512 (.inl rfl) rfl (ix1 r)
      = ∑ k : Fin 128, w (ix2 r k) := by
  refine (Ideal.multiReduction_add_single w 0x00000000#32 reduces_S512x128_S512 (.inl rfl) rfl (ix1 r)).trans ?_
  refine Finset.sum_congr rfl fun k _ => congrArg w (funext fun a => Fin.ext ?_)
  match a with
  | ⟨0, _⟩ => rfl
  | ⟨1, _⟩ => rfl

/-- A vector of 512 entries cast to a column reads, at (r, u), its entry r. -/
theorem colCast_apply {α : Type} (v : S512.Idx → α) (r : Fin 512) (u : Fin 1) :
    shapeCast S512x1 v shapeCasts_S512_S512x1 (ix2 r u) = v (ix1 r) :=
  shapeCast_apply v shapeCasts_S512_S512x1 _ _ (by
    have hu : u.val = 0 := by omega
    rw [Shape.rowMajor_val_two, Shape.rowMajor_val_one]
    show r.val = r.val * 1 + u.val
    omega)

/-- A column broadcast along the lanes reads, at (i, j), the column's entry i. -/
theorem colBcast_apply {α : Type} (v : S512x1.Idx → α) (i j : Fin 512) :
    broadcastTo S512x512 v broadcasts_S512x1_S512x512 (ix2 i j) = v (ix2 i (0 : Fin 1)) := by
  refine broadcastTo_apply v broadcasts_S512x1_S512x512 (ix2 i j) (ix2 i (0 : Fin 1)) fun ax => ?_
  match ax with
  | ⟨0, _⟩ =>
    show i.val = if (512 : Nat) = 1 then 0 else i.val
    rw [if_neg (by decide)]
  | ⟨1, _⟩ =>
    show 0 = if (1 : Nat) = 1 then 0 else j.val
    rw [if_pos rfl]

/-- A row broadcast down the sublanes reads, at (i, j), the row's entry j. -/
theorem rowBcast_apply {α : Type} (v : S1x512.Idx → α) (i j : Fin 512) :
    broadcastTo S512x512 v broadcasts_S1x512_S512x512 (ix2 i j) = v (ix2 (0 : Fin 1) j) :=
  broadcastTo_1b_ab_apply v broadcasts_S1x512_S512x512 i j

/-- A column transposed to a row reads, at (u, j), the column's entry j. -/
theorem colTranspose_apply {α : Type} (v : S512x1.Idx → α) (u : Fin 1) (j : Fin 512) :
    transpose S1x512 [1, 0] v transposes_S512x1_p1_0_S1x512 (ix2 u j) = v (ix2 j u) :=
  transpose_ix2_apply v transposes_S512x1_p1_0_S1x512 u j

/-! ## The Gram product -/

theorem gram_lhs0 (j : S512x512.Idx) (q : dot_S512x128_S512x128_S512x512_1_1_0_0_n_n.contr.Idx) :
    (dot_S512x128_S512x128_S512x512_1_1_0_0_n_n.lhsIdx j q 0).val = (j 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
theorem gram_lhs1 (j : S512x512.Idx) (q : dot_S512x128_S512x128_S512x512_1_1_0_0_n_n.contr.Idx) :
    (dot_S512x128_S512x128_S512x512_1_1_0_0_n_n.lhsIdx j q 1).val = (q ⟨0, by decide⟩).val :=
  dot_S512x128_S512x128_S512x512_1_1_0_0_n_n.lhsIdx_val_of_single rfl j q
theorem gram_rhs0 (j : S512x512.Idx) (q : dot_S512x128_S512x128_S512x512_1_1_0_0_n_n.contr.Idx) :
    (dot_S512x128_S512x128_S512x512_1_1_0_0_n_n.rhsIdx j q 0).val = (j 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
theorem gram_rhs1 (j : S512x512.Idx) (q : dot_S512x128_S512x128_S512x512_1_1_0_0_n_n.contr.Idx) :
    (dot_S512x128_S512x128_S512x512_1_1_0_0_n_n.rhsIdx j q 1).val = (q ⟨0, by decide⟩).val :=
  dot_S512x128_S512x128_S512x512_1_1_0_0_n_n.rhsIdx_val_of_single rfl j q

/-- The product of a 512 x 128 array with the transpose of another, into the zero accumulator, at (i, j): the inner
    product of row i of the first with row j of the second. -/
theorem gramMatmul_apply (a b : FVec Ideal S512x128 .f32) (i j : Fin 512) :
    matmul (F := Ideal) dot_S512x128_S512x128_S512x512_1_1_0_0_n_n (some .fp32) a b (constant (F := Ideal) S512x512 .f32 0x00000000#32) (ix2 i j)
      = ∑ k : Fin 128, a (ix2 i k) * b (ix2 j k) := by
  refine (Ideal.matmul_constant_zero_apply dot_S512x128_S512x128_S512x512_1_1_0_0_n_n (some .fp32) a b (ix2 i j)).trans ?_
  rw [← Equiv.sum_comp (contrEquiv1 dot_S512x128_S512x128_S512x512_1_1_0_0_n_n 128 rfl rfl).symm]
  refine Finset.sum_congr rfl fun k _ => ?_
  have hk := contrEquiv1_symm_val dot_S512x128_S512x128_S512x512_1_1_0_0_n_n 128 rfl rfl k
  have el : dot_S512x128_S512x128_S512x512_1_1_0_0_n_n.lhsIdx (ix2 i j) ((contrEquiv1 dot_S512x128_S512x128_S512x512_1_1_0_0_n_n 128 rfl rfl).symm k) = ix2 i k := funext fun ax => Fin.ext (by
    match ax with
    | ⟨0, _⟩ => exact gram_lhs0 _ _
    | ⟨1, _⟩ => exact (gram_lhs1 _ _).trans hk)
  have er : dot_S512x128_S512x128_S512x512_1_1_0_0_n_n.rhsIdx (ix2 i j) ((contrEquiv1 dot_S512x128_S512x128_S512x512_1_1_0_0_n_n 128 rfl rfl).symm k) = ix2 j k := funext fun ax => Fin.ext (by
    match ax with
    | ⟨0, _⟩ => exact gram_rhs0 _ _
    | ⟨1, _⟩ => exact (gram_rhs1 _ _).trans hk)
  rw [el, er]

/-! ## The comparison with zero as a proposition -/

/-- A select on the bit of "s is greater than 0" is the if on "0 < s". -/
theorem select_ogt_zero (s A B : EReal) : Scalar.select (Ideal.cmp .ogt s 0) A B = if 0 < s then A else B := by
  unfold Scalar.select Ideal.cmp
  by_cases h : 0 < s <;> simp [h]

/-! ## The distance payload at an index -/

/-- The squared norms as the payload spells them: the lane sum of the squares, cast to a column. -/
theorem sqCol_apply (x : Vec Ideal S512x128 .f32) (r : Fin 512) (u : Fin 1) :
    shapeCast S512x1 (multiReduction (F := Ideal) .add [1] S512 (mulf x x) 0x00000000#32 reduces_S512x128_S512 (.inl rfl) rfl) shapeCasts_S512_S512x1 (ix2 r u)
      = Cert.Triplet.sq x r :=
  (colCast_apply _ r u).trans (laneSum_apply (mulf x x) r)

theorem pay2_ix2 (x : Vec Ideal S512x128 .f32) (i j : Fin 512) :
    k0_pay2 (F := Ideal) x (ix2 i j) = Cert.Triplet.dist x i j := by
  unfold k0_pay2
  dsimp only
  have h6 := (colBcast_apply (shapeCast S512x1 (multiReduction (F := Ideal) .add [1] S512 (mulf x x) 0x00000000#32 reduces_S512x128_S512 (.inl rfl) rfl) shapeCasts_S512_S512x1) i j).trans
    (sqCol_apply x i 0)
  have h7 := ((rowBcast_apply (transpose S1x512 [1, 0] (shapeCast S512x1 (multiReduction (F := Ideal) .add [1] S512 (mulf x x) 0x00000000#32 reduces_S512x128_S512 (.inl rfl) rfl) shapeCasts_S512_S512x1) transposes_S512x1_p1_0_S1x512) i j).trans
    (colTranspose_apply _ 0 j)).trans (sqCol_apply x j 0)
  have hg := gramMatmul_apply x x i j
  show Scalar.select (Ideal.cmp .ogt (max (_ + _ - Ideal.ofBits .f32 0x40000000#32 * _) (Ideal.ofBits .f32 0x00000000#32)) (Ideal.ofBits .f32 0x00000000#32))
      (Ideal.sqrt (Scalar.select (Ideal.cmp .ogt (max (_ + _ - Ideal.ofBits .f32 0x40000000#32 * _) (Ideal.ofBits .f32 0x00000000#32)) (Ideal.ofBits .f32 0x00000000#32))
        (max (_ + _ - Ideal.ofBits .f32 0x40000000#32 * _) (Ideal.ofBits .f32 0x00000000#32)) (Ideal.ofBits .f32 0x3F800000#32)))
      (Ideal.ofBits .f32 0x00000000#32) = _
  rw [h6, h7, hg, Ideal.ofBits_zero_f32, show Ideal.ofBits .f32 0x3F800000#32 = 1 from IdealRules.sign_bit.ideal_onePat .f32,
    select_ogt_zero, select_ogt_zero]
  rfl

/-! ## The comparison bits as indicators -/

theorem ind_congr {p q : Prop} [Decidable p] [Decidable q] (h : p ↔ q) : Cert.Triplet.ind p = Cert.Triplet.ind q := by
  unfold Cert.Triplet.ind; exact if_congr h rfl rfl

/-- The bit of an equality of words, zero-extended and converted, is the equality's indicator. -/
theorem sitofp_eq_bit (u v : BitVec 32) :
    FloatOps.sitofp (F := Ideal) .f32 ((IntOp.cmpi .eq u v).setWidth 32) = Cert.Triplet.ind (u = v) := by
  show (((BitVec.setWidth 32 (IntOp.cmpi .eq u v)).toInt : ℝ) : EReal) = _
  by_cases h : u = v
  · have e : IntOp.cmpi .eq u v = 1#1 := by simp [IntOp.cmpi, h]
    rw [e, show (BitVec.setWidth 32 1#1).toInt = 1 by decide]
    simp [Cert.Triplet.ind, h]
  · have e : IntOp.cmpi .eq u v = 0#1 := by
      show BitVec.ofBool (u == v) = 0#1
      rw [beq_eq_false_iff_ne.2 h]; rfl
    rw [e, show (BitVec.setWidth 32 0#1).toInt = 0 by decide]
    simp [Cert.Triplet.ind, h]

/-- The bit of an inequality of words, zero-extended and converted, is the inequality's indicator. -/
theorem sitofp_ne_bit (u v : BitVec 32) :
    FloatOps.sitofp (F := Ideal) .f32 ((IntOp.cmpi .ne u v).setWidth 32) = Cert.Triplet.ind (u ≠ v) := by
  show (((BitVec.setWidth 32 (IntOp.cmpi .ne u v)).toInt : ℝ) : EReal) = _
  by_cases h : u = v
  · have e : IntOp.cmpi .ne u v = 0#1 := by simp [IntOp.cmpi, h]
    rw [e, show (BitVec.setWidth 32 0#1).toInt = 0 by decide]
    simp [Cert.Triplet.ind, h]
  · have e : IntOp.cmpi .ne u v = 1#1 := by
      show BitVec.ofBool (u != v) = 1#1
      rw [bne_iff_ne.2 h]; rfl
    rw [e, show (BitVec.setWidth 32 1#1).toInt = 1 by decide]
    simp [Cert.Triplet.ind, h]

/-- Two row numbers below 512 differ as 32-bit words iff they differ. -/
theorem ofNat_ne_iff (i j : Fin 512) : BitVec.ofNat 32 i.val ≠ BitVec.ofNat 32 j.val ↔ i ≠ j := by
  have hi := i.isLt; have hj := j.isLt
  constructor
  · intro h e; exact h (by rw [e])
  · intro h e
    have := congrArg BitVec.toNat e
    simp only [BitVec.toNat_ofNat] at this
    exact h (Fin.ext (by omega))

/-! ## The mask payloads at an index -/

/-- The same-label payload at (i, j): the indicator that the column's entry i equals the row's entry j. -/
theorem pay3_ix2 (a : Vec Ideal S512x1 .i32) (b : Vec Ideal S1x512 .i32) (i j : Fin 512) :
    k0_pay3 (F := Ideal) a b (ix2 i j) = Cert.Triplet.ind (a (ix2 i (0 : Fin 1)) = b (ix2 (0 : Fin 1) j)) := by
  unfold k0_pay3
  try dsimp only
  have ha : broadcastTo S512x512 (shapeCast S512x1 a shapeCasts_S512x1_S512x1) broadcasts_S512x1_S512x512 (ix2 i j) = a (ix2 i (0 : Fin 1)) :=
    (colBcast_apply _ i j).trans (congrFun (shapeCast_self a shapeCasts_S512x1_S512x1) _)
  have hb : broadcastTo S512x512 (shapeCast S1x512 b shapeCasts_S1x512_S1x512) broadcasts_S1x512_S512x512 (ix2 i j) = b (ix2 (0 : Fin 1) j) :=
    (rowBcast_apply _ i j).trans (congrFun (shapeCast_self b shapeCasts_S1x512_S1x512) _)
  show FloatOps.sitofp (F := Ideal) .f32 ((IntOp.cmpi .eq _ _).setWidth 32) = _
  rw [ha, hb]
  exact sitofp_eq_bit _ _

/-- The positive-mask payload at (i, j). -/
theorem pay4_ix2 (a : Vec Ideal S512x1 .i32) (b : Vec Ideal S1x512 .i32) (i j : Fin 512) :
    k0_pay4 (F := Ideal) a b (ix2 i j) = Cert.Triplet.ind (a (ix2 i (0 : Fin 1)) = b (ix2 (0 : Fin 1) j)) * Cert.Triplet.ind (i ≠ j) := by
  unfold k0_pay4
  try dsimp only
  have h0 := iota_single_apply .tc S512x512 32 0 iota_S512x512_d0_w32 (ix2 i j)
  have h1 := iota_single_apply .tc S512x512 32 1 iota_S512x512_d1_w32 (ix2 i j)
  show k0_pay3 (F := Ideal) a b (ix2 i j) * FloatOps.sitofp (F := Ideal) .f32 ((IntOp.cmpi .ne _ _).setWidth 32) = _
  rw [h0, h1, pay3_ix2, sitofp_ne_bit]
  exact congrArg (_ * ·) (ind_congr (ofNat_ne_iff i j))

/-- The negative-mask payload at (i, j). -/
theorem pay1_ix2 (a : Vec Ideal S512x1 .i32) (b : Vec Ideal S1x512 .i32) (i j : Fin 512) :
    k0_pay1 (F := Ideal) (k0_pay3 (F := Ideal) a b) (k0_pay5 (F := Ideal)) (ix2 i j) = 1 - Cert.Triplet.ind (a (ix2 i (0 : Fin 1)) = b (ix2 (0 : Fin 1) j)) := by
  unfold k0_pay1 k0_pay5
  try dsimp only
  show Ideal.ofBits .f32 0x3F800000#32 - k0_pay3 (F := Ideal) a b (ix2 i j) = _
  rw [pay3_ix2, show Ideal.ofBits .f32 0x3F800000#32 = 1 from IdealRules.sign_bit.ideal_onePat .f32]

end Cert.KernelIdeal.Fr

end
-- ==== Proof.KI.R0Value.lean ====
/- REGION 0's three output arrays after the run, at the ideal values, as the specification's matrices of the arrays the
   region finds (V): the distance matrix of the 512 x 128 argument (final0_3), and, for labels y that the column array
   and the row array both spell, the positive mask (final0_4) and the negative mask (final0_5). The grid has one point
   and every window's block is its whole array: each input block is its array (iblk0_0, iblk0_1, iblk0_2), the one
   block written back is the payload of the arrays at every index (flushed0_W), and it covers the array (cover0_W). -/
import proofs.«102896_j14233521619194_2_alg».proof.Proof.KI.R0Body
import proofs.«102896_j14233521619194_2_alg».proof.Proof.KI.R0ValuePay
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

section Value
variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: every window's block index is (0, 0) at every point. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## Each window's block sits at its array's own indices -/

theorem emb0_0 (t : Fin cfg0.N) (y : S512x128.Idx) : ((cfg0.win 0).blk t).view.emb y = y := by
  obtain ⟨e0, e1, -⟩ := idx_facts0 t
  funext a; apply Fin.ext
  match a with
  | ⟨0, _⟩ => show win0_0.index t (0 : Fin 2) * 512 + 1 * (y 0).val = (y 0).val; omega
  | ⟨1, _⟩ => show win0_0.index t (1 : Fin 2) * 128 + 1 * (y 1).val = (y 1).val; omega

theorem emb0_1 (t : Fin cfg0.N) (y : S512x1.Idx) : ((cfg0.win 1).blk t).view.emb y = y := by
  obtain ⟨-, -, e0, e1, -⟩ := idx_facts0 t
  funext a; apply Fin.ext
  match a with
  | ⟨0, _⟩ => show win0_1.index t (0 : Fin 2) * 512 + 1 * (y 0).val = (y 0).val; omega
  | ⟨1, _⟩ => show win0_1.index t (1 : Fin 2) * 1 + 1 * (y 1).val = (y 1).val; omega

theorem emb0_2 (t : Fin cfg0.N) (y : S1x512.Idx) : ((cfg0.win 2).blk t).view.emb y = y := by
  obtain ⟨-, -, -, -, e0, e1, -⟩ := idx_facts0 t
  funext a; apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem emb0_3 (t : Fin cfg0.N) (y : S512x512.Idx) : ((cfg0.win 3).blk t).view.emb y = y := by
  obtain ⟨-, -, -, -, -, -, e0, e1, -⟩ := idx_facts0 t
  funext a; apply Fin.ext
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem emb0_4 (t : Fin cfg0.N) (y : S512x512.Idx) : ((cfg0.win 4).blk t).view.emb y = y := by
  obtain ⟨-, -, -, -, -, -, -, -, e0, e1, -⟩ := idx_facts0 t
  funext a; apply Fin.ext
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem emb0_5 (t : Fin cfg0.N) (y : S512x512.Idx) : ((cfg0.win 5).blk t).view.emb y = y := by
  obtain ⟨-, -, -, -, -, -, -, -, -, -, e0, e1⟩ := idx_facts0 t
  funext a; apply Fin.ext
  match a with
  | ⟨0, _⟩ => show win0_5.index t (0 : Fin 2) * 512 + 1 * (y 0).val = (y 0).val; omega
  | ⟨1, _⟩ => show win0_5.index t (1 : Fin 2) * 512 + 1 * (y 1).val = (y 1).val; omega

/-! ## Each input block is its array -/

theorem iblk0_0 (c : Dev nD) (t : Fin cfg0.N) : iblk0 V c 0 t = (V c main_arg0 : S512x128.Idx → EReal) := by
  funext y
  show V c main_arg0 (((cfg0.win 0).blk t).view.emb y) = V c main_arg0 y
  rw [emb0_0]

theorem iblk0_1 (c : Dev nD) (t : Fin cfg0.N) : iblk0 V c 1 t = (V c main_v0 : S512x1.Idx → BitVec 32) := by
  funext y
  show V c main_v0 (((cfg0.win 1).blk t).view.emb y) = V c main_v0 y
  rw [emb0_1]

theorem iblk0_2 (c : Dev nD) (t : Fin cfg0.N) : iblk0 V c 2 t = (V c main_v1 : S1x512.Idx → BitVec 32) := by
  funext y
  show V c main_v1 (((cfg0.win 2).blk t).view.emb y) = V c main_v1 y
  rw [emb0_2]

/-! ## Output window 3: the distance matrix -/

/-- What the one point writes back to window 3's array is the block of the distance matrix of the 512 x 128 array. -/
theorem flushed0_3 (c : Dev nD) (t : Fin cfg0.N) :
    (dat0 (F := Ideal) V c).flushed 3 t = ((cfg0.win 3).blk t).view.read (Elt Ideal) (Cert.Triplet.distA (V c main_arg0)) := by
  show (cfg0.win 3).cut (grid0.coords t) ((dat0 V c).after 3 t) = _
  rw [after0_3]
  unfold out0_3
  rw [View.canon_unit_zero hz0]
  simp only [View.ld_unit_zero (S := S512x128) hz0]
  rw [iblk0_0]
  funext j
  show k0_pay2 (F := Ideal) (V c main_arg0) j = Cert.Triplet.distA (V c main_arg0) (((cfg0.win 3).blk t).view.emb j)
  rw [emb0_3]
  obtain ⟨p, q, rfl⟩ : ∃ (p q : Fin 512), j = ix2 p q := ⟨j 0, j 1, eq_ix2 j⟩
  exact pay2_ix2 (V c main_arg0) p q

/-- An index of window 3's array is in point t's block iff each coordinate is in the block's range on its axis. -/
theorem mem_blk0_3 (t : Fin cfg0.N) (i : S512x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v2_0).slice (win0_3.rect t)).set ↔ _
  rw [View.set_slice_whole, Rect.mem_set_unit]
  exact Iff.rfl

/-- The one point's block covers window 3's array. -/
theorem cover0_3 (i : S512x512.Idx) : ∃ t : Fin cfg0.N, (cfg0.win 3).flush t = true ∧ i ∈ ((cfg0.win 3).blk t).view.set := by
  refine ⟨t0_0, flush0_3 t0_0, ?_⟩
  rw [mem_blk0_3]
  obtain ⟨-, -, -, -, -, -, e0, e1, -⟩ := idx_facts0 t0_0
  have h0 : (i 0).val < 512 := (i 0).isLt
  have h1 : (i 1).val < 512 := (i 1).isLt
  intro a
  match a with
  | ⟨0, _⟩ => show win0_3.index t0_0 (0 : Fin 2) * 512 ≤ (i 0).val ∧ (i 0).val < win0_3.index t0_0 (0 : Fin 2) * 512 + 512; omega
  | ⟨1, _⟩ => show win0_3.index t0_0 (1 : Fin 2) * 512 ≤ (i 1).val ∧ (i 1).val < win0_3.index t0_0 (1 : Fin 2) * 512 + 512; omega

/-- Window 3's array after the run is the distance matrix of the 512 x 128 array the region finds. -/
theorem final0_3 (c : Dev nD) :
    ((dat0 (F := Ideal) V c).arrAt 3 cfg0.N : S512x512.Idx → EReal) = Cert.Triplet.distA (V c main_arg0) :=
  (dat0 (F := Ideal) V c).arrAt_eq_of_cover 3 _ (fun t _ => flushed0_3 V c t) cover0_3

/-! ## Output windows 4 and 5: the masks -/

section Masks
variable (c : Dev nD) (y : IVec S512 32)
  (hcol : ∀ i : Fin 512, V c main_v0 (ix2 i (0 : Fin 1)) = y (ix1 i))
  (hrow : ∀ j : Fin 512, V c main_v1 (ix2 (0 : Fin 1) j) = y (ix1 j))
include hcol hrow

/-- What the one point writes back to window 4's array is the block of the positive mask of the labels. -/
theorem flushed0_4 (t : Fin cfg0.N) :
    (dat0 (F := Ideal) V c).flushed 4 t = ((cfg0.win 4).blk t).view.read (Elt Ideal) (Cert.Triplet.posA y) := by
  show (cfg0.win 4).cut (grid0.coords t) ((dat0 V c).after 4 t) = _
  rw [after0_4]
  unfold out0_4
  rw [View.canon_unit_zero hz0]
  simp only [View.ld_unit_zero (S := S512x1) hz0, View.ld_unit_zero (S := S1x512) hz0]
  rw [iblk0_1, iblk0_2]
  funext j
  show k0_pay4 (F := Ideal) (V c main_v0) (V c main_v1) j = Cert.Triplet.posA y (((cfg0.win 4).blk t).view.emb j)
  rw [emb0_4]
  obtain ⟨p, q, rfl⟩ : ∃ (p q : Fin 512), j = ix2 p q := ⟨j 0, j 1, eq_ix2 j⟩
  refine (pay4_ix2 (V c main_v0) (V c main_v1) p q).trans ?_
  rw [hcol p, hrow q]
  rfl

/-- What the one point writes back to window 5's array is the block of the negative mask of the labels. -/
theorem flushed0_5 (t : Fin cfg0.N) :
    (dat0 (F := Ideal) V c).flushed 5 t = ((cfg0.win 5).blk t).view.read (Elt Ideal) (Cert.Triplet.negA y) := by
  show (cfg0.win 5).cut (grid0.coords t) ((dat0 V c).after 5 t) = _
  rw [after0_5]
  unfold out0_5
  rw [View.canon_unit_zero hz0]
  simp only [View.ld_unit_zero (S := S512x1) hz0, View.ld_unit_zero (S := S1x512) hz0]
  rw [iblk0_1, iblk0_2]
  funext j
  show k0_pay1 (F := Ideal) (k0_pay3 (F := Ideal) (V c main_v0) (V c main_v1)) (k0_pay5 (F := Ideal)) j = Cert.Triplet.negA y (((cfg0.win 5).blk t).view.emb j)
  rw [emb0_5]
  obtain ⟨p, q, rfl⟩ : ∃ (p q : Fin 512), j = ix2 p q := ⟨j 0, j 1, eq_ix2 j⟩
  refine (pay1_ix2 (V c main_v0) (V c main_v1) p q).trans ?_
  rw [hcol p, hrow q]
  rfl

omit hcol hrow in
theorem mem_blk0_4 (t : Fin cfg0.N) (i : S512x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v2_1).slice (win0_4.rect t)).set ↔ _
  rw [View.set_slice_whole, Rect.mem_set_unit]
  exact Iff.rfl

omit hcol hrow in
theorem mem_blk0_5 (t : Fin cfg0.N) (i : S512x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v2_2).slice (win0_5.rect t)).set ↔ _
  rw [View.set_slice_whole, Rect.mem_set_unit]
  exact Iff.rfl

omit hcol hrow in
/-- The one point's block covers window 4's array. -/
theorem cover0_4 (i : S512x512.Idx) : ∃ t : Fin cfg0.N, (cfg0.win 4).flush t = true ∧ i ∈ ((cfg0.win 4).blk t).view.set := by
  refine ⟨t0_0, flush0_4 t0_0, ?_⟩
  rw [mem_blk0_4]
  obtain ⟨-, -, -, -, -, -, -, -, e0, e1, -⟩ := idx_facts0 t0_0
  have h0 : (i 0).val < 512 := (i 0).isLt
  have h1 : (i 1).val < 512 := (i 1).isLt
  intro a
  match a with
  | ⟨0, _⟩ => show win0_4.index t0_0 (0 : Fin 2) * 512 ≤ (i 0).val ∧ (i 0).val < win0_4.index t0_0 (0 : Fin 2) * 512 + 512; omega
  | ⟨1, _⟩ => show win0_4.index t0_0 (1 : Fin 2) * 512 ≤ (i 1).val ∧ (i 1).val < win0_4.index t0_0 (1 : Fin 2) * 512 + 512; omega

omit hcol hrow in
/-- The one point's block covers window 5's array. -/
theorem cover0_5 (i : S512x512.Idx) : ∃ t : Fin cfg0.N, (cfg0.win 5).flush t = true ∧ i ∈ ((cfg0.win 5).blk t).view.set := by
  refine ⟨t0_0, flush0_5 t0_0, ?_⟩
  rw [mem_blk0_5]
  obtain ⟨-, -, -, -, -, -, -, -, -, -, e0, e1⟩ := idx_facts0 t0_0
  have h0 : (i 0).val < 512 := (i 0).isLt
  have h1 : (i 1).val < 512 := (i 1).isLt
  intro a
  match a with
  | ⟨0, _⟩ => show win0_5.index t0_0 (0 : Fin 2) * 512 ≤ (i 0).val ∧ (i 0).val < win0_5.index t0_0 (0 : Fin 2) * 512 + 512; omega
  | ⟨1, _⟩ => show win0_5.index t0_0 (1 : Fin 2) * 512 ≤ (i 1).val ∧ (i 1).val < win0_5.index t0_0 (1 : Fin 2) * 512 + 512; omega

/-- Window 4's array after the run is the positive mask of the labels. -/
theorem final0_4 : ((dat0 (F := Ideal) V c).arrAt 4 cfg0.N : S512x512.Idx → EReal) = Cert.Triplet.posA y :=
  (dat0 (F := Ideal) V c).arrAt_eq_of_cover 4 _ (fun t _ => flushed0_4 V c y hcol hrow t) cover0_4

/-- Window 5's array after the run is the negative mask of the labels. -/
theorem final0_5 : ((dat0 (F := Ideal) V c).arrAt 5 cfg0.N : S512x512.Idx → EReal) = Cert.Triplet.negA y :=
  (dat0 (F := Ideal) V c).arrAt_eq_of_cover 5 _ (fun t _ => flushed0_5 V c y hcol hrow t) cover0_5

end Masks

end Value

end Cert.KernelIdeal.Fr

end
-- ==== Proof.KI.R1Final.lean ====
/- REGION 1's one output array after the run, at any scalar field F: the 1 x 1 array of output window 4 ends holding
   what the output's staging buffer holds after the last of the 64 points (arrAt1_4). The window is written back at
   the last point only; its block there is the whole 1 x 1 array, so that one write-back covers the array. -/
import proofs.«102896_j14233521619194_2_alg».proof.Proof.KI.R1Body
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.Sem
open Idealize.ShloMosaic.Pipeline (Dat)

variable {F : FTy → Type} [FloatOps F]
variable (V : (c : Dev nD) → (b : Ref sig .tc) → Buf (Elt F) ((c : Thread nD τ).loc b))

/-- The last point of the 64. -/
theorem lt63_1 : 63 < cfg1.N := by
  show 63 < grid1.N
  rw [N_1]; decide

/-- The printed index map of output window 4, decided over the grid: its block index is (0, 0) at every point. -/
theorem idx_facts1_4 : ∀ t : Fin cfg1.N, win1_4.index t (0 : Fin 2) = 0 ∧ win1_4.index t (1 : Fin 2) = 0 :=
  (by decide +kernel : ∀ t : Fin grid1.N, _)

/-- A point that writes window 4 back is the last one. -/
theorem val_of_flush1_4 (t : Fin cfg1.N) (hf : (cfg1.win 4).flush t = true) : t.val = 63 := by
  have h := (flush1_4 t).mp hf
  have hN : t.val < 64 := Nat.lt_of_lt_of_eq t.isLt N_1
  omega

/-- The block of window 4 sits at the array's own indices. -/
theorem emb1_4 (t : Fin cfg1.N) (y : S1x1.Idx) : ((cfg1.win 4).blk t).view.emb y = y := by
  obtain ⟨e0, e1⟩ := idx_facts1_4 t
  funext a; apply Fin.ext
  match a with
  | ⟨0, _⟩ => show win1_4.index t (0 : Fin 2) * 1 + 1 * (y 0).val = (y 0).val; omega
  | ⟨1, _⟩ => show win1_4.index t (1 : Fin 2) * 1 + 1 * (y 1).val = (y 1).val; omega

/-- What a point that writes window 4 back writes is the block of what the output's staging buffer holds after the
    last point. -/
theorem flushed1_4 (q : Fin cfg1.W → PosShare TreeShare) (c : Dev nD) (t : Fin cfg1.N) (hf : (cfg1.win 4).flush t = true) :
    (dat1 V q c).flushed 4 t = ((cfg1.win 4).blk t).view.read (Elt F) ((outsAt1 V c 63 lt63_1).1 : S1x1.Idx → Elt F .f32) := by
  have ht : t = ⟨63, lt63_1⟩ := Fin.ext (val_of_flush1_4 t hf)
  subst ht
  show (cfg1.win 4).cut (grid1.coords ⟨63, lt63_1⟩) ((dat1 V q c).after 4 ⟨63, lt63_1⟩) = _
  rw [after1_4]
  funext j
  show (outsAt1 V c 63 lt63_1).1 j = (outsAt1 V c 63 lt63_1).1 (((cfg1.win 4).blk ⟨63, lt63_1⟩).view.emb j)
  rw [emb1_4]

/-- An index of window 4's array is in point t's block iff each coordinate is in the block's range on its axis. -/
theorem mem_blk1_4 (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v3).slice (win1_4.rect t)).set ↔ _
  rw [View.set_slice_whole, Rect.mem_set_unit]
  exact Iff.rfl

/-- The last point's block covers window 4's array. -/
theorem cover1_4 (i : S1x1.Idx) : ∃ t : Fin cfg1.N, (cfg1.win 4).flush t = true ∧ i ∈ ((cfg1.win 4).blk t).view.set := by
  refine ⟨⟨63, lt63_1⟩, (flush1_4 ⟨63, lt63_1⟩).mpr (by decide), ?_⟩
  rw [mem_blk1_4]
  obtain ⟨e0, e1⟩ := idx_facts1_4 ⟨63, lt63_1⟩
  have h0 : (i 0).val < 1 := (i 0).isLt
  have h1 : (i 1).val < 1 := (i 1).isLt
  intro a
  match a with
  | ⟨0, _⟩ => show win1_4.index ⟨63, lt63_1⟩ (0 : Fin 2) * 1 ≤ (i 0).val ∧ (i 0).val < win1_4.index ⟨63, lt63_1⟩ (0 : Fin 2) * 1 + 1; omega
  | ⟨1, _⟩ => show win1_4.index ⟨63, lt63_1⟩ (1 : Fin 2) * 1 ≤ (i 1).val ∧ (i 1).val < win1_4.index ⟨63, lt63_1⟩ (1 : Fin 2) * 1 + 1; omega

/-- Window 4's array after the run is what the output's staging buffer holds after the last point. -/
theorem arrAt1_4 (q : Fin cfg1.W → PosShare TreeShare) (c : Dev nD) :
    ((dat1 V q c).arrAt 4 cfg1.N : S1x1.Idx → Elt F .f32) = (outsAt1 V c 63 lt63_1).1 :=
  (dat1 V q c).arrAt_eq_of_cover 4 _ (fun t hf => flushed1_4 V q c t hf) cover1_4

end Cert.KernelIdeal.Fr

end
-- ==== Proof.KI.R1ValuePieces.lean ====
/- The second kernel region's body, read back as values: what each case of the two conditionals leaves in the
   accumulator scratch and, at the last point, in the output, as the skeleton's payloads of the input blocks. At the first
   point the accumulator is zeroed before it is read, so the sum is added to the zero payload; elsewhere to what the point
   before left. The value copied to the output at the last point is the accumulator just stored. Generic in the float
   instance. -/
import proofs.«102896_j14233521619194_2_alg».proof.Proof.KI.R1Body
import Idealize.ShloMosaic.Lib.Pipeline.Value

-- membership in a rectangle of full extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle of rank 2, as the constant function. -/
theorem hz1 : (![0, 0] : Fin 2 → Nat) = fun _ => 0 := funext fun a => by fin_cases a <;> rfl

/-- The first point: the scratch ends at the tile's sum added to the zero the point itself stored. -/
theorem sout1_A_eq (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : cond1_0 i) (hc1 : ¬cond1_1 i) (x0 : Vec F S128x128 .f32) (x1 : Vec F S128x128 .f32) (x2 : Vec F S128x128 .f32) (x3 : Vec F S128x128 .f32) :
    sout1_A_0 c i arg3 harg3 arg4 harg4 arg5 harg5 arg6 harg6 arg7 harg7 arg8 harg8 hc0 hc1 x0 x1 x2 x3 = k1_pay1 (k1_pay3 x0 x1 x2 x3 k1_pay2) := by
  unfold sout1_A_0
  rw [View.read_writes_eq_canon _ _ _ (scover1_A_0 c i arg3 harg3 arg4 harg4 arg5 harg5 arg6 harg6 arg7 harg7 arg8 harg8 hc0 hc1 x0 x1 x2 x3)]
  unfold kernelRun1_A
  dsimp only
  sl_unfold_words
  rw [View.canon_cons_unit_zero (S := S1x1) hz1, View.readCov_unit_zero (S := S1x1) _ hz1]
  simp only [View.readAt_eq_ld, harg3.read_unread, harg4.read_unread, harg5.read_unread, harg6.read_unread, View.ld_unit_zero (S := S128x128) hz1]

/-- A middle point: the scratch ends at the tile's sum added to what the point before left. -/
theorem sout1_B_eq (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : ¬cond1_1 i) (x0 : Vec F S128x128 .f32) (x1 : Vec F S128x128 .f32) (x2 : Vec F S128x128 .f32) (x3 : Vec F S128x128 .f32) (xs0 : Vec F S1x1 .f32) :
    sout1_B_0 c i arg3 harg3 arg4 harg4 arg5 harg5 arg6 harg6 arg7 harg7 arg8 harg8 hc0 hc1 x0 x1 x2 x3 xs0 = k1_pay1 (k1_pay3 x0 x1 x2 x3 xs0) := by
  unfold sout1_B_0
  rw [View.read_writes_eq_canon _ _ _ (scover1_B_0 c i arg3 harg3 arg4 harg4 arg5 harg5 arg6 harg6 arg7 harg7 arg8 harg8 hc0 hc1 x0 x1 x2 x3 xs0)]
  unfold kernelRun1_B
  dsimp only
  sl_unfold_words
  rw [View.canon_unit_zero (S := S1x1) hz1]
  simp only [View.readAt_eq_ld, harg3.read_unread, harg4.read_unread, harg5.read_unread, harg6.read_unread, harg8.read_unread, View.ld_unit_zero (S := S128x128) hz1, View.ld_unit_zero (S := S1x1) hz1]

/-- The last point: the scratch ends at the tile's sum added to what the point before left. -/
theorem sout1_C_eq (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (x0 : Vec F S128x128 .f32) (x1 : Vec F S128x128 .f32) (x2 : Vec F S128x128 .f32) (x3 : Vec F S128x128 .f32) (xs0 : Vec F S1x1 .f32) :
    sout1_C_0 c i arg3 harg3 arg4 harg4 arg5 harg5 arg6 harg6 arg7 harg7 arg8 harg8 hc0 hc1 x0 x1 x2 x3 xs0 = k1_pay1 (k1_pay3 x0 x1 x2 x3 xs0) := by
  unfold sout1_C_0
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  sl_unfold_words
  rw [View.canon_unit_zero (S := S1x1) hz1]
  simp only [View.readAt_eq_ld, harg3.read_unread, harg4.read_unread, harg5.read_unread, harg6.read_unread, harg8.read_unread, View.ld_unit_zero (S := S128x128) hz1, View.ld_unit_zero (S := S1x1) hz1]

/-- The last point: the output ends at the accumulator just stored. -/
theorem out1_C_eq (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1 .f32) (harg7 : arg7.IsWhole) (arg8 : Memref sig .tc .vmem S1x1 .f32) (harg8 : arg8.IsWhole) (hc0 : ¬cond1_0 i) (hc1 : cond1_1 i) (x0 : Vec F S128x128 .f32) (x1 : Vec F S128x128 .f32) (x2 : Vec F S128x128 .f32) (x3 : Vec F S128x128 .f32) (xs0 : Vec F S1x1 .f32) :
    out1_C_4 c i arg3 harg3 arg4 harg4 arg5 harg5 arg6 harg6 arg7 harg7 arg8 harg8 hc0 hc1 x0 x1 x2 x3 xs0 = k1_pay1 (k1_pay3 x0 x1 x2 x3 xs0) := by
  unfold out1_C_4
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  sl_unfold_words
  rw [View.canon_unit_zero (S := S1x1) hz1, View.readCov_unit_zero (S := S1x1) _ hz1]
  simp only [View.readAt_eq_ld, harg3.read_unread, harg4.read_unread, harg5.read_unread, harg6.read_unread, harg8.read_unread, View.ld_unit_zero (S := S128x128) hz1, View.ld_unit_zero (S := S1x1) hz1]

-- Core `c`'s TensorCore buffer contents when the second kernel region is entered.
variable (V : (c : Dev nD) → (b : Ref sig .tc) → Buf (Elt F) ((c : Thread nD τ).loc b))

/-! ## The accumulator from point to point -/

/-- After the first point the accumulator holds the first tile's sum added to the stored zero. -/
theorem outsAt1_zero_snd (c : Dev nD) (h : 0 < cfg1.N) :
    (outsAt1 V c 0 h).2 = k1_pay1 (k1_pay3 (iblk1 V c 0 ⟨0, h⟩) (iblk1 V c 1 ⟨0, h⟩) (iblk1 V c 2 ⟨0, h⟩) (iblk1 V c 3 ⟨0, h⟩) k1_pay2) := by
  rw [outsAt1_A V c ⟨0, h⟩ rfl (show ¬(0 : ℕ) = 63 by decide)]
  dsimp only
  exact sout1_A_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) scM1_0 (Memref.isWhole_whole _) _ _ (iblk1 V c 0 ⟨0, h⟩) (iblk1 V c 1 ⟨0, h⟩) (iblk1 V c 2 ⟨0, h⟩) (iblk1 V c 3 ⟨0, h⟩)

/-- After any later point the accumulator holds that point's tile's sum added to what the point before left. -/
theorem outsAt1_succ_snd (c : Dev nD) (n : ℕ) (h : n + 1 < cfg1.N) :
    (outsAt1 V c (n + 1) h).2 = k1_pay1 (k1_pay3 (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2) := by
  by_cases h63 : n + 1 = 63
  · rw [outsAt1_C V c ⟨n + 1, h⟩ (Nat.succ_ne_zero n) h63]
    dsimp only
    exact sout1_C_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) _ _ (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2
  · rw [outsAt1_B V c ⟨n + 1, h⟩ (Nat.succ_ne_zero n) h63]
    dsimp only
    exact sout1_B_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) _ _ (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2

/-- After the last point the output's buffer holds what the accumulator holds. -/
theorem outsAt1_last (c : Dev nD) (h : 63 < cfg1.N) : (outsAt1 V c 63 h).1 = (outsAt1 V c 63 h).2 := by
  rw [outsAt1_C V c ⟨63, h⟩ (show ¬(63 : ℕ) = 0 by decide) rfl]
  dsimp only
  exact (out1_C_eq c (grid1.coords ⟨63, h⟩) (ms1_0 ⟨63, h⟩) (hs1_0 ⟨63, h⟩) (ms1_1 ⟨63, h⟩) (hs1_1 ⟨63, h⟩) (ms1_2 ⟨63, h⟩) (hs1_2 ⟨63, h⟩) (ms1_3 ⟨63, h⟩) (hs1_3 ⟨63, h⟩) (ms1_4 ⟨63, h⟩) (hs1_4 ⟨63, h⟩) scM1_0 (Memref.isWhole_whole _) _ _ (iblk1 V c 0 ⟨63, h⟩) (iblk1 V c 1 ⟨63, h⟩) (iblk1 V c 2 ⟨63, h⟩) (iblk1 V c 3 ⟨63, h⟩) (outsAt1 V c 62 (Nat.lt_of_succ_lt h)).2).trans
    (sout1_C_eq c (grid1.coords ⟨63, h⟩) (ms1_0 ⟨63, h⟩) (hs1_0 ⟨63, h⟩) (ms1_1 ⟨63, h⟩) (hs1_1 ⟨63, h⟩) (ms1_2 ⟨63, h⟩) (hs1_2 ⟨63, h⟩) (ms1_3 ⟨63, h⟩) (hs1_3 ⟨63, h⟩) (ms1_4 ⟨63, h⟩) (hs1_4 ⟨63, h⟩) scM1_0 (Memref.isWhole_whole _) _ _ (iblk1 V c 0 ⟨63, h⟩) (iblk1 V c 1 ⟨63, h⟩) (iblk1 V c 2 ⟨63, h⟩) (iblk1 V c 3 ⟨63, h⟩) (outsAt1 V c 62 (Nat.lt_of_succ_lt h)).2).symm

end Cert.KernelIdeal.Fr

end
-- ==== Proof.SpecLaws.lean ====
import proofs.«102896_j14233521619194_2_alg».proof.Proof.Spec

/-!
# Laws of the triplet-margin total

* Scalar facts on the extended reals that hold with no finiteness hypothesis: `x·1 = x`, `x·0 = 0`,
  `1 − 1 = 0`, `1 − 0 = 1`, so a product with an indicator is an `if`.
* Bridges from the machine's words to the specification's mathematics: a comparison bit, widened and
  converted to a float, is the indicator of the comparison; a select on the bit of `z < s` is the `if`.
* Regrouping: the total over `512³` triples is the sum over the `4³` blocks of the block totals, in any
  enumeration of the blocks, and a running sum started from `0` is the finite sum.

Only the commutativity and associativity of `+` on the extended reals are used for the regrouping.
-/

noncomputable section

open scoped BigOperators

namespace Cert.Triplet

open Idealize.ShloMosaic Idealize.ShloMosaic.ValueIdx

/-! ## Indicators -/

theorem ind_true {c : Prop} [Decidable c] (h : c) : ind c = 1 := if_pos h
theorem ind_false {c : Prop} [Decidable c] (h : ¬c) : ind c = 0 := if_neg h

/-- The indicator is `0` or `1`. -/
theorem ind_cases (c : Prop) [Decidable c] : ind c = 0 ∨ ind c = 1 := by
  by_cases h : c
  · exact Or.inr (ind_true h)
  · exact Or.inl (ind_false h)

/-- A product with an indicator keeps the factor where the proposition holds and is `0` elsewhere. -/
theorem mul_ind (x : EReal) (c : Prop) [Decidable c] : x * ind c = if c then x else 0 := by
  by_cases h : c
  · rw [ind_true h, if_pos h, mul_one]
  · rw [ind_false h, if_neg h, mul_zero]

/-- The complement of an indicator is the indicator of the negation. -/
theorem one_sub_ind (c : Prop) [Decidable c] : 1 - ind c = ind (¬c) := by
  by_cases h : c
  · rw [ind_true h, ind_false (not_not.mpr h)]
    rw [← EReal.coe_one, ← EReal.coe_sub, sub_self, EReal.coe_zero]
  · rw [ind_false h, ind_true h, sub_zero]

/-- The product of two indicators is the indicator of the conjunction. -/
theorem ind_mul_ind (c d : Prop) [Decidable c] [Decidable d] : ind c * ind d = ind (c ∧ d) := by
  by_cases hc : c <;> by_cases hd : d <;> simp [ind, hc, hd]

theorem pos_eq_ind (y : IVec S512 32) (i j : Fin 512) : pos y i j = ind (y (ix1 i) = y (ix1 j) ∧ i ≠ j) :=
  ind_mul_ind _ _

theorem neg_eq_ind (y : IVec S512 32) (i j : Fin 512) : neg y i j = ind (¬ y (ix1 i) = y (ix1 j)) :=
  one_sub_ind _

/-- One triple's term with the masks read as a condition: the cut-off margin where the triple is admissible,
    `0` elsewhere. -/
theorem term_masks (D : Vec Ideal S512x512 .f32) (y : IVec S512 32) (a p n : Fin 512) :
    term D (posA y) (negA y) a p n
      = if (y (ix1 a) = y (ix1 p) ∧ a ≠ p) ∧ ¬ y (ix1 a) = y (ix1 n) then
          max (D (ix2 a p) - D (ix2 a n) + Ideal.ofBits .f32 0x3F000000#32) (Ideal.ofBits .f32 0x322BCC77#32)
        else 0 := by
  unfold term
  rw [posA_ix2, negA_ix2, pos_eq_ind, neg_eq_ind, mul_assoc, ind_mul_ind, mul_ind]

/-! ## Words to mathematics -/

/-- A bit, widened to 32 bits and read as a signed integer, then as a float: `1` for the set bit, `0` for the
    clear one. -/
theorem sitofp_ofBool (b : Bool) :
    FloatOps.sitofp (F := Ideal) .f32 ((BitVec.ofBool b).setWidth 32) = if b then 1 else 0 := by
  cases b
  · show (((0#32 : BitVec 32).toInt : ℝ) : EReal) = 0
    simp
  · show (((1#32 : BitVec 32).toInt : ℝ) : EReal) = 1
    have : (1#32 : BitVec 32).toInt = 1 := by decide
    rw [this]; simp

/-- The equality bit of two words, widened and converted: the indicator of the equality. -/
theorem sitofp_cmpi_eq (u v : BitVec 32) :
    FloatOps.sitofp (F := Ideal) .f32 ((IntOp.cmpi .eq u v).setWidth 32) = ind (u = v) := by
  unfold IntOp.cmpi
  rw [sitofp_ofBool]
  by_cases h : u = v <;> simp [ind, h]

/-- The disequality bit of two words, widened and converted: the indicator of the disequality. -/
theorem sitofp_cmpi_ne (u v : BitVec 32) :
    FloatOps.sitofp (F := Ideal) .f32 ((IntOp.cmpi .ne u v).setWidth 32) = ind (u ≠ v) := by
  unfold IntOp.cmpi
  rw [sitofp_ofBool]
  by_cases h : u = v <;> simp [ind, h]

/-- Two coordinates below 512, as 32-bit words, are equal exactly when the coordinates are. -/
theorem ofNat_eq_iff (i j : Fin 512) : BitVec.ofNat 32 i.val = BitVec.ofNat 32 j.val ↔ i = j := by
  constructor
  · intro h
    have := congrArg BitVec.toNat h
    simp only [BitVec.toNat_ofNat] at this
    have hi := i.isLt; have hj := j.isLt
    exact Fin.ext (by omega)
  · rintro rfl; rfl

/-- The word `0x3F800000` denotes `1`. -/
theorem ofBits_one_f32 : Ideal.ofBits .f32 0x3F800000#32 = 1 := IdealRules.sign_bit.ideal_onePat .f32

/-- The complement of a bit is the bit of the negation. -/
theorem not_ofBool (b : Bool) : ~~~BitVec.ofBool b = BitVec.ofBool (!b) := by cases b <;> decide

/-- The conjunction of two bits is the bit of the conjunction. -/
theorem ofBool_and (b c : Bool) : BitVec.ofBool b &&& BitVec.ofBool c = BitVec.ofBool (b && c) := by
  cases b <;> cases c <;> decide

/-- A select on a bit is the `if` on the Boolean. -/
theorem select_ofBool {α : Type} (b : Bool) (u v : α) : Scalar.select (BitVec.ofBool b) u v = if b then u else v := by
  cases b <;> rfl

/-- A select on the bit of `z < s` is the `if`. -/
theorem select_cmp_ogt {α : Type} (s z : EReal) (u v : α) :
    Scalar.select (Ideal.cmp .ogt s z) u v = if z < s then u else v := by
  unfold Scalar.select Ideal.cmp
  by_cases h : z < s <;> simp [h]

/-- The two nested selects that compute a distance from its square, as the specification writes it. -/
theorem distOf_eq_select (s : EReal) :
    Scalar.select (Ideal.cmp .ogt s 0) (Ideal.sqrt (Scalar.select (Ideal.cmp .ogt s 0) s 1)) 0 = distOf s := by
  rw [select_cmp_ogt, select_cmp_ogt]; rfl

/-! ## Regrouping the total by blocks -/

/-- Rows `0 … 511` are the rows `128·A + a` of the four blocks. -/
def blkEquiv : Fin 4 × Fin 128 ≃ Fin 512 where
  toFun q := blk q.1 q.2
  invFun i := (⟨i.val / 128, by have := i.isLt; omega⟩, ⟨i.val % 128, Nat.mod_lt _ (by norm_num)⟩)
  left_inv := by
    rintro ⟨A, a⟩
    have hA := A.isLt; have ha := a.isLt
    refine Prod.ext (Fin.ext ?_) (Fin.ext ?_)
    · show (128 * A.val + a.val) / 128 = A.val
      omega
    · show (128 * A.val + a.val) % 128 = a.val
      omega
  right_inv := by
    intro i
    refine Fin.ext ?_
    show 128 * (i.val / 128) + i.val % 128 = i.val
    omega

/-- A sum over the 512 rows is the sum over the blocks of the sums over a block's rows. -/
theorem sum_blk {M : Type*} [AddCommMonoid M] (f : Fin 512 → M) :
    ∑ i : Fin 512, f i = ∑ A : Fin 4, ∑ a : Fin 128, f (blk A a) := by
  rw [← Equiv.sum_comp blkEquiv f, Fintype.sum_prod_type]
  rfl

/-- A triple sum over the rows is the sum over the blocks of the triple sums over a block's rows. -/
theorem sum3_blk {M : Type*} [AddCommMonoid M] (f : Fin 512 → Fin 512 → Fin 512 → M) :
    ∑ a : Fin 512, ∑ p : Fin 512, ∑ n : Fin 512, f a p n
      = ∑ A : Fin 4, ∑ Pb : Fin 4, ∑ Nb : Fin 4, ∑ a : Fin 128, ∑ p : Fin 128, ∑ n : Fin 128,
          f (blk A a) (blk Pb p) (blk Nb n) := by
  calc ∑ a : Fin 512, ∑ p : Fin 512, ∑ n : Fin 512, f a p n
      = ∑ A : Fin 4, ∑ a : Fin 128, ∑ Pb : Fin 4, ∑ p : Fin 128, ∑ Nb : Fin 4, ∑ n : Fin 128,
          f (blk A a) (blk Pb p) (blk Nb n) := by
        rw [sum_blk (fun a => ∑ p : Fin 512, ∑ n : Fin 512, f a p n)]
        refine Finset.sum_congr rfl fun A _ => Finset.sum_congr rfl fun a _ => ?_
        rw [sum_blk (fun p => ∑ n : Fin 512, f (blk A a) p n)]
        refine Finset.sum_congr rfl fun Pb _ => Finset.sum_congr rfl fun p _ => ?_
        exact sum_blk (fun n => f (blk A a) (blk Pb p) n)
    _ = ∑ A : Fin 4, ∑ Pb : Fin 4, ∑ a : Fin 128, ∑ p : Fin 128, ∑ Nb : Fin 4, ∑ n : Fin 128,
          f (blk A a) (blk Pb p) (blk Nb n) :=
        Finset.sum_congr rfl fun A _ => Finset.sum_comm
    _ = ∑ A : Fin 4, ∑ Pb : Fin 4, ∑ a : Fin 128, ∑ Nb : Fin 4, ∑ p : Fin 128, ∑ n : Fin 128,
          f (blk A a) (blk Pb p) (blk Nb n) :=
        Finset.sum_congr rfl fun A _ => Finset.sum_congr rfl fun Pb _ => Finset.sum_congr rfl fun a _ =>
          Finset.sum_comm
    _ = ∑ A : Fin 4, ∑ Pb : Fin 4, ∑ Nb : Fin 4, ∑ a : Fin 128, ∑ p : Fin 128, ∑ n : Fin 128,
          f (blk A a) (blk Pb p) (blk Nb n) :=
        Finset.sum_congr rfl fun A _ => Finset.sum_congr rfl fun Pb _ => Finset.sum_comm

/-- The total is the sum of the 64 block totals. -/
theorem total_eq_tiles (D P N : Vec Ideal S512x512 .f32) :
    total D P N = ∑ A : Fin 4, ∑ Pb : Fin 4, ∑ Nb : Fin 4, tileSum D P N A Pb Nb :=
  sum3_blk (term D P N)

/-! ## The blocks in the order the grid visits them -/

/-- The block row of grid point `t`: `t / 16`. -/
abbrev ptA (t : Fin 64) : Fin 4 := ⟨t.val / 16, by have := t.isLt; omega⟩
/-- The first block column of grid point `t`: `(t / 4) % 4`. -/
abbrev ptP (t : Fin 64) : Fin 4 := ⟨t.val / 4 % 4, Nat.mod_lt _ (by norm_num)⟩
/-- The second block column of grid point `t`: `t % 4`. -/
abbrev ptN (t : Fin 64) : Fin 4 := ⟨t.val % 4, Nat.mod_lt _ (by norm_num)⟩

/-- The 64 grid points are the triples of block coordinates, `t = 16·A + 4·Pb + Nb`. -/
def ptEquiv : Fin 4 × Fin 4 × Fin 4 ≃ Fin 64 where
  toFun q := ⟨16 * q.1.val + 4 * q.2.1.val + q.2.2.val, by
    have := q.1.isLt; have := q.2.1.isLt; have := q.2.2.isLt; omega⟩
  invFun t := (ptA t, ptP t, ptN t)
  left_inv := by
    rintro ⟨A, Pb, Nb⟩
    have hA := A.isLt; have hP := Pb.isLt; have hN := Nb.isLt
    refine Prod.ext (Fin.ext ?_) (Prod.ext (Fin.ext ?_) (Fin.ext ?_))
    · show (16 * A.val + 4 * Pb.val + Nb.val) / 16 = A.val
      omega
    · show (16 * A.val + 4 * Pb.val + Nb.val) / 4 % 4 = Pb.val
      omega
    · show (16 * A.val + 4 * Pb.val + Nb.val) % 4 = Nb.val
      omega
  right_inv := by
    intro t
    refine Fin.ext ?_
    show 16 * (t.val / 16) + 4 * (t.val / 4 % 4) + t.val % 4 = t.val
    omega

/-- A sum over the triples of block coordinates is the sum over the grid points. -/
theorem sum_pt {M : Type*} [AddCommMonoid M] (g : Fin 4 → Fin 4 → Fin 4 → M) :
    ∑ A : Fin 4, ∑ Pb : Fin 4, ∑ Nb : Fin 4, g A Pb Nb = ∑ t : Fin 64, g (ptA t) (ptP t) (ptN t) := by
  calc ∑ A : Fin 4, ∑ Pb : Fin 4, ∑ Nb : Fin 4, g A Pb Nb
      = ∑ q : Fin 4 × Fin 4 × Fin 4, g q.1 q.2.1 q.2.2 := by simp only [Fintype.sum_prod_type]
    _ = ∑ t : Fin 64, g (ptA t) (ptP t) (ptN t) :=
        (Equiv.sum_comp ptEquiv.symm (fun q : Fin 4 × Fin 4 × Fin 4 => g q.1 q.2.1 q.2.2)).symm

/-- The total is the sum over the 64 grid points of the block total of the point's block. -/
theorem total_eq_points (D P N : Vec Ideal S512x512 .f32) :
    total D P N = ∑ t : Fin 64, tileSum D P N (ptA t) (ptP t) (ptN t) := by
  rw [total_eq_tiles, sum_pt]

/-! ## A running sum -/

/-- The accumulator after point `n`: `0 + s 0` after the first point, the previous value plus `s n` after. -/
def runSum (s : ℕ → EReal) : ℕ → EReal
  | 0 => 0 + s 0
  | n + 1 => runSum s n + s (n + 1)

/-- The accumulator after point `n` is the sum of the first `n + 1` contributions. -/
theorem runSum_eq_sum_range (s : ℕ → EReal) (n : ℕ) : runSum s n = ∑ t ∈ Finset.range (n + 1), s t := by
  induction n with
  | zero => simp [runSum]
  | succ n ih => rw [runSum, ih]; exact (Finset.sum_range_succ s (n + 1)).symm

/-- After the last of 64 points the accumulator holds the sum of the 64 contributions. -/
theorem fold_eq_sum (s : Fin 64 → EReal) :
    runSum (fun n => if h : n < 64 then s ⟨n, h⟩ else 0) 63 = ∑ t : Fin 64, s t := by
  rw [runSum_eq_sum_range]
  refine (Fin.sum_univ_eq_sum_range (fun n => if h : n < 64 then s ⟨n, h⟩ else 0) 64).symm.trans ?_
  exact Finset.sum_congr rfl fun t _ => dif_pos t.isLt

/-- The kernel's accumulator after its last point is the total: the running sum of the block totals in the
    grid's order. -/
theorem runSum_tiles (D P N : Vec Ideal S512x512 .f32) :
    runSum (fun n => if h : n < 64 then tileSum D P N (ptA ⟨n, h⟩) (ptP ⟨n, h⟩) (ptN ⟨n, h⟩) else 0) 63
      = total D P N := by
  rw [total_eq_points]
  exact fold_eq_sum (fun t => tileSum D P N (ptA t) (ptP t) (ptN t))

end Cert.Triplet

end
-- ==== Proof.KI.R1Pay.lean ====
import proofs.«102896_j14233521619194_2_alg».proof.Proof.Gen.KernelIdeal.Skeleton
import proofs.«102896_j14233521619194_2_alg».proof.Proof.Spec
import proofs.«102896_j14233521619194_2_alg».proof.Proof.SpecLaws
import Idealize.ShloMosaic.Lib.Pipeline.Value
import Idealize.ShloMosaic.Lib.ValueIdx
import Idealize.ShloMosaic.PureOps.Ideal.Laws

/-!
# The payloads of the block-sum kernel, on the extended reals

One grid point of the second kernel holds four `128 × 128` blocks — distances `(a, p)` and `(a, n)`, the positive
mask `(a, p)`, the negative mask `(a, n)` — and a one-element accumulator. Its value payload is the accumulator plus
the sum over `(a, p, n) ∈ 128³` of `max (d(a,p) − d(a,n) + 1/2) ε · pos(a,p) · neg(a,n)`: the blocks are broadcast
along the missing axis, combined elementwise, and the three axes are summed one at a time (last axis first).
The two other payloads are the accumulator unchanged and the zero it starts from.
-/

noncomputable section

open scoped BigOperators

namespace Cert.KernelIdeal.Val

open Cert.KernelIdeal Idealize.ShloMosaic Idealize.ShloMosaic.ValueIdx

/-! ## Layout: a block broadcast along a third axis -/

section Layout
variable {α : Type}

/-- A `128 × 128` block viewed `128 × 128 × 1` and broadcast along the last axis reads `(a, p)` at `(a, p, n)`. -/
theorem cast_bcast_ap (v : S128x128.Idx → α) (h1 : S128x128.ShapeCasts S128x128x1)
    (h2 : S128x128x1.Broadcasts S128x128x128) (a p n : Fin 128) :
    broadcastTo S128x128x128 (shapeCast S128x128x1 v h1) h2 (ix3 a p n) = v (ix2 a p) := by
  refine (broadcastTo_apply _ h2 (ix3 a p n) (ix3 a p (0 : Fin 1)) (fun d => by
    match d with | ⟨0, _⟩ => rfl | ⟨1, _⟩ => rfl | ⟨2, _⟩ => rfl)).trans ?_
  refine shapeCast_apply v h1 (ix3 a p (0 : Fin 1)) (ix2 a p) ?_
  rw [Shape.rowMajor_val_two, Shape.rowMajor_val_three]
  show a.val * 128 + p.val = (a.val * 128 + p.val) * 1 + 0
  omega

/-- A `128 × 128` block viewed `128 × 1 × 128` and broadcast along the middle axis reads `(a, n)` at `(a, p, n)`. -/
theorem cast_bcast_an (v : S128x128.Idx → α) (h1 : S128x128.ShapeCasts S128x1x128)
    (h2 : S128x1x128.Broadcasts S128x128x128) (a p n : Fin 128) :
    broadcastTo S128x128x128 (shapeCast S128x1x128 v h1) h2 (ix3 a p n) = v (ix2 a n) := by
  refine (broadcastTo_apply _ h2 (ix3 a p n) (ix3 a (0 : Fin 1) n) (fun d => by
    match d with | ⟨0, _⟩ => rfl | ⟨1, _⟩ => rfl | ⟨2, _⟩ => rfl)).trans ?_
  refine shapeCast_apply v h1 (ix3 a (0 : Fin 1) n) (ix2 a n) ?_
  rw [Shape.rowMajor_val_two, Shape.rowMajor_val_three]
  show a.val * 128 + n.val = (a.val * 1 + 0) * 128 + n.val
  omega

end Layout

/-- The one index of a `1 × 1` vector. -/
theorem idx_S1x1 (j : S1x1.Idx) : j = ix2 (0 : Fin 1) (0 : Fin 1) := by
  funext d
  refine Fin.ext ?_
  match d with
  | ⟨0, _⟩ => have := idx2_lt0 j; show (j 0).val = 0; omega
  | ⟨1, _⟩ => have := idx2_lt1 j; show (j 1).val = 0; omega

/-! ## The three sums, one axis at a time -/

/-- Summing a `128³` tensor over its last axis, then the middle one, then (as a column) the first, and viewing the
    result `1 × 1`, gives the triple sum. -/
theorem red_tower (X : FVec Ideal S128x128x128 .f32)
    (hr2 : S128x128x128.Reduces [2] S128x128) (hr1 : S128x128.Reduces [1] S128) (hr0 : S128x1.Reduces [0] S1)
    (hc1 : S128.ShapeCasts S128x1) (hc2 : S1.ShapeCasts S1x1) (hφ2 hφ1 hφ0 : FKind.Formats .f32)
    (ha2 : (0x00000000#32 : BitVec 32) = FKind.add.neutral .f32 hφ2)
    (ha1 : (0x00000000#32 : BitVec 32) = FKind.add.neutral .f32 hφ1)
    (ha0 : (0x00000000#32 : BitVec 32) = FKind.add.neutral .f32 hφ0) (j : S1x1.Idx) :
    shapeCast S1x1 (multiReduction .add [0] S1 (shapeCast S128x1 (multiReduction .add [1] S128
      (multiReduction .add [2] S128x128 X 0x00000000#32 hr2 hφ2 ha2) 0x00000000#32 hr1 hφ1 ha1) hc1)
        0x00000000#32 hr0 hφ0 ha0) hc2 j
      = ∑ a : Fin 128, ∑ p : Fin 128, ∑ n : Fin 128, X (ix3 a p n) := by
  refine (shapeCast_apply _ hc2 j (ix1 (0 : Fin 1)) ?_).trans ?_
  · rw [Shape.rowMajor_val_one, Shape.rowMajor_val_two]
    have h0 := idx2_lt0 j; have h1 := idx2_lt1 j
    show 0 = (j 0).val * 1 + (j 1).val
    omega
  refine (Ideal.multiReduction_add_single _ _ hr0 hφ0 ha0 (ix1 (0 : Fin 1))).trans ?_
  refine Finset.sum_congr rfl fun (a : Fin 128) _ => ?_
  refine (shapeCast_apply _ hc1 _ (ix1 a) ?_).trans ?_
  · rw [Shape.rowMajor_val_one, Shape.rowMajor_val_two]
    show a.val = a.val * 1 + 0
    omega
  refine (Ideal.multiReduction_add_single _ _ hr1 hφ1 ha1 (ix1 a)).trans ?_
  refine Finset.sum_congr rfl fun (p : Fin 128) _ => ?_
  have e1 : hr1.lift (ix1 a) p = ix2 a p :=
    funext fun d => Fin.ext (by match d with | ⟨0, _⟩ => rfl | ⟨1, _⟩ => rfl)
  refine (congrArg _ e1).trans ?_
  refine (Ideal.multiReduction_add_single X _ hr2 hφ2 ha2 (ix2 a p)).trans ?_
  refine Finset.sum_congr rfl fun (n : Fin 128) _ => ?_
  exact congrArg X (funext fun d => Fin.ext (by match d with | ⟨0, _⟩ => rfl | ⟨1, _⟩ => rfl | ⟨2, _⟩ => rfl))

/-! ## The payloads -/

/-- The accumulator written back is the accumulator. -/
theorem pay1_eq (v : Vec Ideal S1x1 .f32) : Gen.k1_pay1 (F := Ideal) v = v :=
  shapeCast_self v _

/-- The accumulator's initial value is `0`. -/
theorem pay2_eq : Gen.k1_pay2 (F := Ideal) = fun _ => 0 := by
  unfold Gen.k1_pay2
  refine (shapeCast_self _ _).trans ?_
  funext j
  show Ideal.ofBits .f32 0x00000000#32 = 0
  exact Ideal.ofBits_zero_f32

/-- The value payload: the accumulator plus the block's triple sum. -/
theorem pay3_eq (v7 v9 v11 v13 : Vec Ideal S128x128 .f32) (v35 : Vec Ideal S1x1 .f32) :
    Gen.k1_pay3 (F := Ideal) v7 v9 v11 v13 v35 = fun _ => v35 (ix2 0 0)
      + ∑ a : Fin 128, ∑ p : Fin 128, ∑ n : Fin 128,
          (max (v7 (ix2 a p) - v9 (ix2 a n) + Ideal.ofBits .f32 0x3F000000#32) (Ideal.ofBits .f32 0x322BCC77#32)
            * v11 (ix2 a p) * v13 (ix2 a n)) := by
  funext j
  unfold Gen.k1_pay3
  dsimp only
  refine (addf_apply _ _ j).trans ?_
  refine congrArg₂ (· + ·) (congrArg v35 (idx_S1x1 j)) ?_
  refine (red_tower _ _ _ _ _ _ _ _ _ _ _ _ j).trans ?_
  refine Finset.sum_congr rfl fun a _ => Finset.sum_congr rfl fun p _ => Finset.sum_congr rfl fun n _ => ?_
  simp only [shapeCast_self, mulf_apply, maximumf_apply, addf_apply, subf_apply, broadcast_apply, cast_bcast_ap,
    cast_bcast_an]
  rfl

end Cert.KernelIdeal.Val

end
-- ==== Proof.KI.R1Blocks.lean ====
import proofs.«102896_j14233521619194_2_alg».proof.Proof.Gen.KernelIdeal.Launch
import proofs.«102896_j14233521619194_2_alg».proof.Proof.Gen.KernelIdeal.Points
import proofs.«102896_j14233521619194_2_alg».proof.Proof.KI.R1Runs
import proofs.«102896_j14233521619194_2_alg».proof.Proof.Spec
import proofs.«102896_j14233521619194_2_alg».proof.Proof.SpecLaws
import Idealize.ShloMosaic.Lib.Pipeline.Value
import Idealize.ShloMosaic.Lib.ValueIdx

/-!
# The four input blocks of a grid point, read off their arrays

Grid point `t` of the `4 × 4 × 4` grid is the block triple `(A, P, N) = (t / 16, (t / 4) % 4, t % 4)`. Its four
`128 × 128` input blocks are: the distance matrix at block `(A, P)` and at block `(A, N)`, the positive mask at block
`(A, P)`, the negative mask at block `(A, N)`. Entry `(ya, yb)` of a block at block position `(R, C)` is entry
`(128·R + ya, 128·C + yb)` of the array.
-/

noncomputable section

namespace Cert.KernelIdeal.Val

open Cert.KernelIdeal Cert.KernelIdeal.Gen
open Idealize.ShloMosaic Idealize.ShloMosaic.TcCoe Idealize.ShloMosaic.ValueIdx Idealize.SL.Sem
open Cert.Triplet (blk ptA ptP ptN)

/-- A grid point as a number below 64. -/
abbrev pt64 (t : Fin cfg1.N) : Fin 64 := t.cast Gen.N_1

/-- The block positions the four input windows read at each grid point, decided over the 64 points. -/
theorem idx_facts1 : ∀ t : Fin cfg1.N,
    win1_0.index t (0 : Fin 2) = t.val / 16 ∧ win1_0.index t (1 : Fin 2) = t.val / 4 % 4
    ∧ win1_1.index t (0 : Fin 2) = t.val / 16 ∧ win1_1.index t (1 : Fin 2) = t.val % 4
    ∧ win1_2.index t (0 : Fin 2) = t.val / 16 ∧ win1_2.index t (1 : Fin 2) = t.val / 4 % 4
    ∧ win1_3.index t (0 : Fin 2) = t.val / 16 ∧ win1_3.index t (1 : Fin 2) = t.val % 4 :=
  (by decide +kernel : ∀ t : Fin grid1.N, _)

variable (V : (c : Dev nD) → (b : Ref sig .tc) → Buf (Elt Ideal) ((c : Thread nD τ).loc b))

/-- Window 0's block: the first array at rows of block `A`, columns of block `P`. -/
theorem iblk1_0_apply (c : Dev nD) (t : Fin cfg1.N) (ya yb : Fin 128) :
    Fr.iblk1 (F := Ideal) V c 0 t (ix2 ya yb)
      = V c main_v2_0 (ix2 (blk (ptA (pt64 t)) ya) (blk (ptP (pt64 t)) yb)) := by
  obtain ⟨e00, e01, -⟩ := idx_facts1 t
  show V c main_v2_0 (((cfg1.win 0).blk t).view.emb (ix2 ya yb)) = _
  refine congrArg (V c main_v2_0) (funext fun a => Fin.ext ?_)
  match a with
  | ⟨0, _⟩ =>
    show win1_0.index t (0 : Fin 2) * 128 + 1 * ya.val = 128 * (t.val / 16) + ya.val
    omega
  | ⟨1, _⟩ =>
    show win1_0.index t (1 : Fin 2) * 128 + 1 * yb.val = 128 * (t.val / 4 % 4) + yb.val
    omega

/-- Window 1's block: the first array at rows of block `A`, columns of block `N`. -/
theorem iblk1_1_apply (c : Dev nD) (t : Fin cfg1.N) (ya yb : Fin 128) :
    Fr.iblk1 (F := Ideal) V c 1 t (ix2 ya yb)
      = V c main_v2_0 (ix2 (blk (ptA (pt64 t)) ya) (blk (ptN (pt64 t)) yb)) := by
  obtain ⟨-, -, e10, e11, -⟩ := idx_facts1 t
  show V c main_v2_0 (((cfg1.win 1).blk t).view.emb (ix2 ya yb)) = _
  refine congrArg (V c main_v2_0) (funext fun a => Fin.ext ?_)
  match a with
  | ⟨0, _⟩ =>
    show win1_1.index t (0 : Fin 2) * 128 + 1 * ya.val = 128 * (t.val / 16) + ya.val
    omega
  | ⟨1, _⟩ =>
    show win1_1.index t (1 : Fin 2) * 128 + 1 * yb.val = 128 * (t.val % 4) + yb.val
    omega

/-- Window 2's block: the second array at rows of block `A`, columns of block `P`. -/
theorem iblk1_2_apply (c : Dev nD) (t : Fin cfg1.N) (ya yb : Fin 128) :
    Fr.iblk1 (F := Ideal) V c 2 t (ix2 ya yb)
      = V c main_v2_1 (ix2 (blk (ptA (pt64 t)) ya) (blk (ptP (pt64 t)) yb)) := by
  obtain ⟨-, -, -, -, e20, e21, -⟩ := idx_facts1 t
  show V c main_v2_1 (((cfg1.win 2).blk t).view.emb (ix2 ya yb)) = _
  refine congrArg (V c main_v2_1) (funext fun a => Fin.ext ?_)
  match a with
  | ⟨0, _⟩ =>
    show win1_2.index t (0 : Fin 2) * 128 + 1 * ya.val = 128 * (t.val / 16) + ya.val
    omega
  | ⟨1, _⟩ =>
    show win1_2.index t (1 : Fin 2) * 128 + 1 * yb.val = 128 * (t.val / 4 % 4) + yb.val
    omega

/-- Window 3's block: the third array at rows of block `A`, columns of block `N`. -/
theorem iblk1_3_apply (c : Dev nD) (t : Fin cfg1.N) (ya yb : Fin 128) :
    Fr.iblk1 (F := Ideal) V c 3 t (ix2 ya yb)
      = V c main_v2_2 (ix2 (blk (ptA (pt64 t)) ya) (blk (ptN (pt64 t)) yb)) := by
  obtain ⟨-, -, -, -, -, -, e30, e31⟩ := idx_facts1 t
  show V c main_v2_2 (((cfg1.win 3).blk t).view.emb (ix2 ya yb)) = _
  refine congrArg (V c main_v2_2) (funext fun a => Fin.ext ?_)
  match a with
  | ⟨0, _⟩ =>
    show win1_3.index t (0 : Fin 2) * 128 + 1 * ya.val = 128 * (t.val / 16) + ya.val
    omega
  | ⟨1, _⟩ =>
    show win1_3.index t (1 : Fin 2) * 128 + 1 * yb.val = 128 * (t.val % 4) + yb.val
    omega

end Cert.KernelIdeal.Val

end
-- ==== Proof.KI.R1ValueSum.lean ====
/- The second kernel region's accumulator on the extended reals. One grid point adds to the accumulator the sum, over the
   128 x 128 x 128 triples of its block, of the cut-off margin times the two masks: the block's total. So the accumulator
   after point n is the running sum of the block totals of points 0 … n started from 0, and after the last of the 64
   points it is the total over all 512 x 512 x 512 triples; the value copied to the output at the last point is that. -/
import proofs.«102896_j14233521619194_2_alg».proof.Proof.KI.R1ValuePieces
import proofs.«102896_j14233521619194_2_alg».proof.Proof.KI.R1Pay
import proofs.«102896_j14233521619194_2_alg».proof.Proof.KI.R1Blocks
import proofs.«102896_j14233521619194_2_alg».proof.Proof.SpecLaws

set_option maxRecDepth 16384

noncomputable section

open scoped BigOperators

namespace Cert.KernelIdeal.Fr

open Cert.KernelIdeal Cert.KernelIdeal.Gen Cert.KernelIdeal.Val
open Idealize.ShloMosaic Idealize.ShloMosaic.TcCoe Idealize.ShloMosaic.ValueIdx Idealize.SL.Sem
open Cert.Triplet (blk ptA ptP ptN tileSum term total runSum runSum_tiles)

-- Core `c`'s TensorCore buffer contents when the second kernel region is entered, on the extended reals.
variable (V : (c : Dev nD) → (b : Ref sig .tc) → Buf (Elt Ideal) ((c : Thread nD τ).loc b))

/-- What grid point `n` contributes: the total of its block `(n / 16, (n / 4) % 4, n % 4)`. -/
abbrev contrib1 (D P N : Vec Ideal Cert.Triplet.S512x512 .f32) : ℕ → EReal :=
  fun n => if h : n < 64 then tileSum D P N (ptA ⟨n, h⟩) (ptP ⟨n, h⟩) (ptN ⟨n, h⟩) else 0

theorem contrib1_pt (D P N : Vec Ideal Cert.Triplet.S512x512 .f32) (t : Fin cfg1.N) :
    contrib1 D P N t.val = tileSum D P N (ptA (pt64 t)) (ptP (pt64 t)) (ptN (pt64 t)) :=
  dif_pos (lt_of_lt_of_eq t.isLt N_1)

/-- One point's value payload at the point's four blocks: the accumulator plus the block's total. The blocks are tiles of
    the three arrays (distances at `(A, P)` and `(A, N)`, the positive mask at `(A, P)`, the negative mask at `(A, N)`), so
    each summand is the triple's term. -/
theorem pay3_blocks1 (c : Dev nD) (D P N : Vec Ideal Cert.Triplet.S512x512 .f32)
    (hD : (V c main_v2_0 : S512x512.Idx → EReal) = D) (hP : (V c main_v2_1 : S512x512.Idx → EReal) = P)
    (hN : (V c main_v2_2 : S512x512.Idx → EReal) = N) (t : Fin cfg1.N) (acc : Vec Ideal S1x1 .f32) :
    k1_pay3 (F := Ideal) (iblk1 V c 0 t) (iblk1 V c 1 t) (iblk1 V c 2 t) (iblk1 V c 3 t) acc
      = fun _ => acc (ix2 0 0) + contrib1 D P N t.val := by
  subst hD hP hN
  refine (pay3_eq (iblk1 V c 0 t) (iblk1 V c 1 t) (iblk1 V c 2 t) (iblk1 V c 3 t) acc).trans ?_
  rw [contrib1_pt]
  funext _
  refine congrArg (acc (ix2 0 0) + ·) ?_
  unfold tileSum
  refine Finset.sum_congr rfl fun a _ => Finset.sum_congr rfl fun p _ => Finset.sum_congr rfl fun n _ => ?_
  rw [iblk1_0_apply, iblk1_1_apply, iblk1_2_apply, iblk1_3_apply]
  rfl

/-- The accumulator after point `n` is the running sum of the block totals of points `0 … n`, started from `0`: by
    induction on the point. -/
theorem scratch1_eq (c : Dev nD) (D P N : Vec Ideal Cert.Triplet.S512x512 .f32)
    (hD : (V c main_v2_0 : S512x512.Idx → EReal) = D) (hP : (V c main_v2_1 : S512x512.Idx → EReal) = P)
    (hN : (V c main_v2_2 : S512x512.Idx → EReal) = N) :
    ∀ (n : ℕ) (h : n < cfg1.N), (outsAt1 (F := Ideal) V c n h).2 = fun _ => runSum (contrib1 D P N) n
  | 0, h => by
    rw [outsAt1_zero_snd, pay1_eq, pay3_blocks1 V c D P N hD hP hN ⟨0, h⟩, pay2_eq]
    rfl
  | n + 1, h => by
    rw [outsAt1_succ_snd, pay1_eq, pay3_blocks1 V c D P N hD hP hN ⟨n + 1, h⟩,
      scratch1_eq c D P N hD hP hN n (Nat.lt_of_succ_lt h)]
    rfl

/-- What the last point leaves in the output's buffer: the total over all triples. -/
theorem outs63 (c : Dev nD) (D P N : Vec Ideal Cert.Triplet.S512x512 .f32)
    (hD : (V c main_v2_0 : S512x512.Idx → EReal) = D) (hP : (V c main_v2_1 : S512x512.Idx → EReal) = P)
    (hN : (V c main_v2_2 : S512x512.Idx → EReal) = N) :
    (outsAt1 (F := Ideal) V c 63 (by rw [show cfg1.N = 64 from N_1]; decide)).1 = fun _ => Cert.Triplet.total D P N := by
  rw [outsAt1_last, scratch1_eq V c D P N hD hP hN]
  funext _
  exact runSum_tiles D P N

end Cert.KernelIdeal.Fr

end
-- ==== Proof.KI.Value.lean ====
/- The kernel program's result at the ideal instance: the closing reshape of what the second region's last grid point
   writes back, which is the sum over the 64 tiles of the clamped margins under the two masks, of the distance matrix
   and the masks the first region leaves, of the launched features and labels. -/
import proofs.«102896_j14233521619194_2_alg».proof.Proof.KI.RunMain
import proofs.«102896_j14233521619194_2_alg».proof.Proof.KI.R0Value
import proofs.«102896_j14233521619194_2_alg».proof.Proof.KI.R1Final
import proofs.«102896_j14233521619194_2_alg».proof.Proof.KI.R1ValueSum
import proofs.«102896_j14233521619194_2_alg».proof.Proof.Spec
import proofs.«102896_j14233521619194_2_alg».proof.Proof.SpecLaws
import Idealize.ShloMosaic.Lib.StableHlo.Run
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

variable (m : (ℓ : Loc nD τ sig) → Buf (Elt Ideal) ℓ) (ρ : Dev nD → PrngReg)

/-! # What the kernel's program leaves in its result, at the ideal instance

The labels reach region 0 as a column and as a row; region 0 leaves the distance matrix and the two masks; region 1
adds the masked margins up; the closing reshape drops the two unit axes. -/

/-- The features reach region 0 as launched. -/
theorem V1_arg0 (c : Dev nD) : V1 m ρ c main_arg0 = m ((c : Thread nD τ).loc main_arg0) :=
  hostOps0_writes_not main_arg0 (by decide) (by decide) _

/-- The labels as a column. -/
theorem V1_v0 (c : Dev nD) :
    V1 m ρ c main_v0 = shapeCast S512x1 (m ((c : Thread nD τ).loc main_arg1)) shapeCasts_S512_S512x1 := by
  show StableHlo.after hostOps0 (W0 m ρ c) (Proc.devRef .tc main_v0) = _
  after_results
  rfl

/-- The labels as a row. -/
theorem V1_v1 (c : Dev nD) :
    V1 m ρ c main_v1 = shapeCast S1x512 (m ((c : Thread nD τ).loc main_arg1)) shapeCasts_S512_S1x512 := by
  show StableHlo.after hostOps0 (W0 m ρ c) (Proc.devRef .tc main_v1) = _
  after_results
  rfl

theorem hcol (c : Dev nD) (i : Fin 512) :
    V1 m ρ c main_v0 (ix2 i (0 : Fin 1)) = (m ((c : Thread nD τ).loc main_arg1) : S512.Idx → BitVec 32) (ix1 i) := by
  rw [V1_v0]
  exact shapeCast_apply _ _ _ _ (by
    show (S512.rowMajor (ix1 i)).val = (S512x1.rowMajor (ix2 i (0 : Fin 1))).val
    rw [Shape.rowMajor_val_one, Shape.rowMajor_val_two]
    show i.val = i.val * 1 + 0
    omega)

theorem hrow (c : Dev nD) (j : Fin 512) :
    V1 m ρ c main_v1 (ix2 (0 : Fin 1) j) = (m ((c : Thread nD τ).loc main_arg1) : S512.Idx → BitVec 32) (ix1 j) := by
  rw [V1_v1]
  exact shapeCast_a_1a_apply _ _ 0 j

/-- Region 1 finds the distance matrix of the launched features in its first array, -/
theorem V2_dist (c : Dev nD) :
    (V2 m ρ c main_v2_0 : S512x512.Idx → EReal) = Cert.Triplet.distA (m ((c : Thread nD τ).loc main_arg0)) := by
  have h := final0_3 (V1 m ρ) c
  rw [V1_arg0] at h
  exact (W2_arr m ρ c 3).trans h

/-- the same-label-and-distinct mask in its second, -/
theorem V2_pos (c : Dev nD) :
    (V2 m ρ c main_v2_1 : S512x512.Idx → EReal) = Cert.Triplet.posA (m ((c : Thread nD τ).loc main_arg1)) :=
  (W2_arr m ρ c 4).trans (final0_4 (V1 m ρ) c _ (hcol m ρ c) (hrow m ρ c))

/-- and the different-label mask in its third. -/
theorem V2_neg (c : Dev nD) :
    (V2 m ρ c main_v2_2 : S512x512.Idx → EReal) = Cert.Triplet.negA (m ((c : Thread nD τ).loc main_arg1)) :=
  (W2_arr m ρ c 5).trans (final0_5 (V1 m ρ) c _ (hcol m ρ c) (hrow m ρ c))

/-- The closing reshape of region 1's result. -/
theorem W4_v4 (c : Dev nD) :
    W4 m ρ c main_v4 = shapeCast S_ (W3 m ρ c main_v3) shapeCasts_S1x1_S_ := by
  show StableHlo.after hostOps2 (W3 m ρ c) (Proc.devRef .tc main_v4) = _
  after_results
  rfl

/-- THE KERNEL'S VALUE. The result buffer ends at the sum, over every anchor, positive and negative, of the clamped
    margin times the two masks, of the launched features and labels: region 0's three matrices (`V2_dist`, `V2_pos`,
    `V2_neg`), region 1's accumulation over its 64 tiles read at the last point (`outs63`) and written back there
    (`arrAt1_4`), the two unit axes dropped. -/
theorem kernel_value (c : Dev nD) :
    (W4 m ρ c main_v4 : S_.Idx → EReal) = fun _ => Cert.Triplet.total
      (Cert.Triplet.distA (m ((c : Thread nD τ).loc main_arg0)))
      (Cert.Triplet.posA (m ((c : Thread nD τ).loc main_arg1)))
      (Cert.Triplet.negA (m ((c : Thread nD τ).loc main_arg1))) := by
  rw [W4_v4, W3_v3, arrAt1_4 (V2 m ρ) q1 c, outs63 (V2 m ρ) c _ _ _ (V2_dist m ρ c) (V2_pos m ρ c) (V2_neg m ρ c)]
  rfl

end Cert.KernelIdeal.Fr

end
-- ==== Proof.RefValue.lean ====
import proofs.«102896_j14233521619194_2_alg».proof.Proof.Gen.ReferenceIdeal.Read
import proofs.«102896_j14233521619194_2_alg».proof.Proof.Spec
import proofs.«102896_j14233521619194_2_alg».proof.Proof.SpecLaws

/-!
# The reference computes the triplet-margin total

The reference's result, read one operation at a time at an index, is the specification's `total` of the
distance matrix and the two masks of its inputs. The stages: a row's squared norm and two rows' inner product
are the specification's sums; the clamped squared distance and the distance follow by the scalar operations;
the two Boolean masks are the bits of the conditions "same label, different rows" and "different labels"; an
element of the `512³` tensor is then the select of the cut-off margin on the conjunction of the two bits, which
is the product of the margin with the two float masks; and the sum over every index of the tensor is the triple
sum over its coordinates.
-/

noncomputable section

open scoped BigOperators

namespace Cert.ReferenceIdeal.RefValue

open Cert.ReferenceIdeal Cert.ReferenceIdeal.Read Idealize.ShloMosaic Idealize.ShloMosaic.ValueIdx
open Cert.Triplet (ind sq gram sqd distOf dist pos neg distA posA negA term total)

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- The Boolean equality test of two words is the decision of their equality. -/
theorem beq_eq_decide' {w : Nat} (u v : BitVec w) : (u == v) = decide (u = v) := by
  by_cases h : u = v <;> simp [h]

variable (x : (⟨S512x128, .f32⟩ : BufTy).Contents (Elt Ideal)) (y : (⟨S512, .i32⟩ : BufTy).Contents (Elt Ideal))

/-! ## The distance matrix -/

/-- The reduce over the columns of `x·x` is a row's squared norm. -/
theorem ref_sq (i : Fin 512) : val_main_v1 (F := Ideal) x (ix1 i) = sq x i := by
  rw [val_main_v1_apply, val_main_cst_apply, Ideal.ofBits_def, Ideal.ofBits_zero_f32, zero_add]
  unfold Cert.Triplet.sq
  refine Finset.sum_congr rfl fun k _ => ?_
  rw [val_main_v0_apply, Ideal.mulf_def]
  have e : idx_main_v1 (ix1 i) k = ix2 i k :=
    funext fun a => Fin.ext (by match a with | ⟨0, _⟩ => rfl | ⟨1, _⟩ => rfl)
  rw [e]

/-- The product of `x` with its transpose is the inner product of two rows. -/
theorem ref_gram (i j : Fin 512) : val_main_v8 (F := Ideal) x (ix2 i j) = gram x i j := by
  rw [val_main_v8_apply]
  unfold gram
  refine Finset.sum_congr rfl fun k _ => ?_
  rw [val_main_v7_apply]
  have el : lidx_main_v8 (ix2 i j) k = ix2 i k :=
    funext fun a => Fin.ext (by match a with | ⟨0, _⟩ => rfl | ⟨1, _⟩ => rfl)
  have er : idx_main_v7 (ridx_main_v8 (ix2 i j) k) = ix2 j k :=
    funext fun a => Fin.ext (by match a with | ⟨0, _⟩ => rfl | ⟨1, _⟩ => rfl)
  rw [el, er]

/-- The clamped squared distance. -/
theorem ref_sqd (i j : Fin 512) : val_main_v13 (F := Ideal) x (ix2 i j) = sqd x i j := by
  rw [val_main_v13_apply, val_main_v11_apply, val_main_v6_apply, val_main_v4_apply, val_main_v2_apply,
    val_main_v5_apply, val_main_v3_apply, val_main_v10_apply, val_main_v9_apply, val_main_cst_0_apply,
    val_main_v12_apply, val_main_cst_1_apply]
  have e1 : idx_main_v2 (idx_main_v4 (ix2 i j)) = ix1 i :=
    funext fun a => Fin.ext (by match a with | ⟨0, _⟩ => rfl)
  have e2 : idx_main_v3 (idx_main_v5 (ix2 i j)) = ix1 j :=
    funext fun a => Fin.ext (by match a with | ⟨0, _⟩ => rfl)
  rw [e1, e2, ref_sq, ref_sq, ref_gram]
  show max (sq x i + sq x j - Ideal.ofBits .f32 0x40000000#32 * gram x i j) (Ideal.ofBits .f32 0x00000000#32) = _
  rw [Ideal.ofBits_zero_f32]
  rfl

/-- The distance: the two selects around the square root. -/
theorem ref_dist (i j : Fin 512) : val_main_v18 (F := Ideal) x (ix2 i j) = dist x i j := by
  rw [val_main_v18_apply, val_main_v17_apply, val_main_v16_apply, val_main_v15_apply, val_main_v14_apply,
    val_main_cst_2_apply, val_main_call0_v1_apply, val_main_call0_v0_apply, val_main_cst_3_apply,
    val_main_call1_v1_apply, val_main_call1_v0_apply, val_main_cst_4_apply, ref_sqd]
  show Scalar.select (Ideal.cmp .ogt (sqd x i j) (Ideal.ofBits .f32 0x00000000#32))
      (Ideal.sqrt (Scalar.select (Ideal.cmp .ogt (sqd x i j) (Ideal.ofBits .f32 0x00000000#32)) (sqd x i j)
        (Ideal.ofBits .f32 0x3F800000#32))) (Ideal.ofBits .f32 0x00000000#32) = _
  rw [Ideal.ofBits_zero_f32, Cert.Triplet.ofBits_one_f32]
  exact Cert.Triplet.distOf_eq_select _

/-! ## The two Boolean masks -/

/-- The label comparison is the bit of "same label". -/
theorem ref_same (i j : Fin 512) :
    val_main_v23 (F := Ideal) y (ix2 i j) = BitVec.ofBool (decide (y (ix1 i) = y (ix1 j))) := by
  rw [val_main_v23_apply, val_main_v21_apply, val_main_v19_apply, val_main_v22_apply, val_main_v20_apply]
  have e1 : idx_main_v19 (idx_main_v21 (ix2 i j)) = ix1 i :=
    funext fun a => Fin.ext (by match a with | ⟨0, _⟩ => rfl)
  have e2 : idx_main_v20 (idx_main_v22 (ix2 i j)) = ix1 j :=
    funext fun a => Fin.ext (by match a with | ⟨0, _⟩ => rfl)
  rw [e1, e2]
  unfold IntOp.cmpi
  exact congrArg BitVec.ofBool (beq_eq_decide' _ _)

/-- The comparison of the two coordinate tensors is the bit of "same row". -/
theorem ref_eye (i j : Fin 512) : val_main_v28 (F := Ideal) (ix2 i j) = BitVec.ofBool (decide (i = j)) := by
  rw [val_main_v28_apply, val_main_v27_apply, val_main_v24_apply, val_main_v26_apply, val_main_c_apply,
    val_main_v25_apply]
  unfold IntOp.cmpi IntOp.addi
  show BitVec.ofBool (BitVec.ofNat 32 i.val + 0#32 == BitVec.ofNat 32 j.val) = _
  rw [BitVec.add_zero, beq_eq_decide']
  exact congrArg BitVec.ofBool (decide_eq_decide.mpr (Cert.Triplet.ofNat_eq_iff i j))

/-- The positive mask is the bit of "same label, different rows". -/
theorem ref_posmask (i j : Fin 512) :
    val_main_v30 (F := Ideal) y (ix2 i j) = BitVec.ofBool (decide (y (ix1 i) = y (ix1 j) ∧ i ≠ j)) := by
  rw [val_main_v30_apply, val_main_v29_apply, ref_same, ref_eye]
  unfold IntOp.andi
  rw [Cert.Triplet.not_ofBool, Cert.Triplet.ofBool_and]
  refine congrArg BitVec.ofBool ?_
  simp

/-- The negative mask is the bit of "different labels". -/
theorem ref_negmask (i j : Fin 512) :
    val_main_v31 (F := Ideal) y (ix2 i j) = BitVec.ofBool (decide (¬ y (ix1 i) = y (ix1 j))) := by
  rw [val_main_v31_apply, ref_same, Cert.Triplet.not_ofBool]
  refine congrArg BitVec.ofBool ?_
  simp

/-! ## One element of the `512³` tensor, and the total -/

/-- The select of the cut-off margin on the two masks is the specification's term. -/
theorem ref_elem (a p n : Fin 512) :
    val_main_v45 (F := Ideal) x y (ix3 a p n) = term (distA x) (posA y) (negA y) a p n := by
  rw [val_main_v45_apply, val_main_v44_apply, val_main_v42_apply, val_main_v40_apply, val_main_v43_apply,
    val_main_v41_apply, val_main_v39_apply, val_main_call2_v1_apply, val_main_call2_v0_apply, val_main_cst_6_apply,
    val_main_v38_apply, val_main_v36_apply, val_main_v34_apply, val_main_v32_apply, val_main_v35_apply,
    val_main_v33_apply, val_main_v37_apply, val_main_cst_5_apply, val_main_call3_v1_apply, val_main_call3_v0_apply,
    val_main_cst_7_apply]
  have e1 : idx_main_v40 (idx_main_v42 (ix3 a p n)) = ix2 a p :=
    funext fun d => Fin.ext (by match d with | ⟨0, _⟩ => rfl | ⟨1, _⟩ => rfl)
  have e2 : idx_main_v41 (idx_main_v43 (ix3 a p n)) = ix2 a n :=
    funext fun d => Fin.ext (by match d with | ⟨0, _⟩ => rfl | ⟨1, _⟩ => rfl)
  have e3 : idx_main_v32 (idx_main_v34 (ix3 a p n)) = ix2 a p :=
    funext fun d => Fin.ext (by match d with | ⟨0, _⟩ => rfl | ⟨1, _⟩ => rfl)
  have e4 : idx_main_v33 (idx_main_v35 (ix3 a p n)) = ix2 a n :=
    funext fun d => Fin.ext (by match d with | ⟨0, _⟩ => rfl | ⟨1, _⟩ => rfl)
  rw [e1, e2, e3, e4, ref_posmask, ref_negmask, ref_dist, ref_dist, Cert.Triplet.term_masks]
  unfold IntOp.andi
  rw [Cert.Triplet.ofBool_and, Cert.Triplet.select_ofBool]
  show (if (decide (y (ix1 a) = y (ix1 p) ∧ a ≠ p) && decide (¬ y (ix1 a) = y (ix1 n))) = true then
      max (Ideal.ofBits .f32 0x322BCC77#32) (dist x a p - dist x a n + Ideal.ofBits .f32 0x3F000000#32)
    else Ideal.ofBits .f32 0x00000000#32) = _
  rw [Ideal.ofBits_zero_f32, max_comm]
  simp only [Bool.and_eq_true, decide_eq_true_eq]
  rfl

/-- THE REFERENCE'S RESULT is the total of the specification at the distance matrix and the two masks of its
    inputs. -/
theorem ref_eq :
    val_main_v46 (F := Ideal) x y = fun _ => total (distA x) (posA y) (negA y) := by
  funext i
  rw [val_main_v46_apply, val_main_cst_8_apply, Ideal.ofBits_def, Ideal.ofBits_zero_f32, zero_add]
  refine (sum_idx3 _).trans ?_
  unfold total
  exact Finset.sum_congr rfl fun a _ => Finset.sum_congr rfl fun p _ => Finset.sum_congr rfl fun n _ =>
    ref_elem x y a p n

end Cert.ReferenceIdeal.RefValue

end
-- ==== Proof.lean ====
/- The proof of `Cert.Claim` for the triplet-margin loss: a two-kernel program (pairwise distances and label masks;
   then the sum, over all anchor / positive / negative triples, of the clamped margin under the masks, accumulated
   over 64 tiles) against the dense jnp reference.
   Frames: each kernel program runs as two pipeline regions between reshapes of the labels and of the result; the
   second region reads the distance matrix through two windows, which hold one half of it each. The reference's
   frame is its run with the result dropped. The idealization rewrote nothing, so `preserves` is `True`.
   Algebraic: at the ideal instance both results are ONE function of the features and labels (`Cert.Triplet.total`
   of the distance matrix and the two masks): the kernel's by reading its run, the reference's by reading its
   operations one at a time; a 0/1 float mask multiplies where the reference selects, and the tiled accumulation is a
   regrouping of one finite sum — commutativity and associativity of addition on the extended reals, no finiteness. -/
import proofs.«102896_j14233521619194_2_alg».proof.Defs
import proofs.«102896_j14233521619194_2_alg».proof.Proof.Gen.Kernel
import proofs.«102896_j14233521619194_2_alg».proof.Proof.Gen.KernelIdeal
import proofs.«102896_j14233521619194_2_alg».proof.Proof.Gen.ReferenceIdeal
import proofs.«102896_j14233521619194_2_alg».proof.Proof.Gen.Pre_finite_inputs
import proofs.«102896_j14233521619194_2_alg».proof.Proof.Gen.ReferenceIdeal.Run
import proofs.«102896_j14233521619194_2_alg».proof.Proof.Gen.ReferenceIdeal.Read
import proofs.«102896_j14233521619194_2_alg».proof.Proof.K.RunMain
import proofs.«102896_j14233521619194_2_alg».proof.Proof.KI.RunMain
import proofs.«102896_j14233521619194_2_alg».proof.Proof.KI.Value
import proofs.«102896_j14233521619194_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the same function of the launched features and labels. -/
theorem algebraic : Cert.algebraic_KernelIdeal_ReferenceIdeal := by
  intro m ρ m' ρ' _ hagree
  refine ⟨fun c => fun _ => Cert.Triplet.total
      (Cert.Triplet.distA (m ((c.tc : Thread Cert.KernelIdeal.nD Cert.KernelIdeal.τ).loc Cert.KernelIdeal.main_arg0)))
      (Cert.Triplet.posA (m ((c.tc : Thread Cert.KernelIdeal.nD Cert.KernelIdeal.τ).loc Cert.KernelIdeal.main_arg1)))
      (Cert.Triplet.negA (m ((c.tc : Thread Cert.KernelIdeal.nD Cert.KernelIdeal.τ).loc Cert.KernelIdeal.main_arg1))), ?_, ?_⟩
  · exact (θ_run Cert.KernelIdeal.defs _ _).mono (fun r h c =>
      ⟨(h c _ (Cert.KernelIdeal.Fr.mem_uc Cert.KernelIdeal.main_v4 (by decide))).trans (Cert.KernelIdeal.Fr.kernel_value m ρ c),
       (h c _ (Cert.KernelIdeal.Fr.mem_uc Cert.KernelIdeal.main_arg0 (by decide))).trans (Cert.KernelIdeal.Fr.W4_main_arg0 m ρ c),
       (h c _ (Cert.KernelIdeal.Fr.mem_uc Cert.KernelIdeal.main_arg1 (by decide))).trans (Cert.KernelIdeal.Fr.W4_main_arg1 m ρ c)⟩)
      (Cert.KernelIdeal.Fr.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
